-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S2x128x128 : Shape := ⟨3, ![2, 128, 128]⟩
abbrev S3x2x128x128 : Shape := ⟨4, ![3, 2, 128, 128]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S128x128 : S_.BroadcastsInDim S128x128 (![] : Fin 0 → Fin S128x128.rank)
  reducesTo_S128x128_S_d0_1 : S128x128.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S3x2x128x128 : S_.BroadcastsInDim S3x2x128x128 (![] : Fin 0 → Fin S3x2x128x128.rank)
  reducesTo_S3x2x128x128_S_d0_1_2_3 : S3x2x128x128.ReducesTo [0, 1, 2, 3] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S128x128 .f32) (main_arg7 : FVec F S3x2x128x128 .f32) (main_arg8 : FVec F S1 .f32) (main_v13 : IVec S_ 1) (main_v16 : IVec S2x128x128 1) : IVec S_ 1 :=
  let main_c_5 : IVec S_ 1 := constantI S_ 1 1#1
  let main_v17 : IVec S_ 1 := (fun x v => Host.reduce IntOp.andi x v reducesTo_S2x128x128_S_d0_1_2 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S3x2x128x128 .f32 := Host.absf main_arg7
  let main_cst_8 : FVec F S_ .f32 := constant S_ .f32 0x7F800000#32
  let main_v25 : FVec F S3x2x128x128 .f32 := broadcastInDim S3x2x128x128 ![] bcast_S_S3x2x128x128 main_cst_8
  let main_v26 : IVec S3x2x128x128 1 := cmpf .olt main_v24 main_v25
  let main_c_9 : IVec S_ 1 := constantI S_ 1 1#1
  let main_v27 : IVec S_ 1 := (fun x v => Host.reduce IntOp.andi x v reducesTo_S3x2x128x128_S_d0_1_2_3 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S50000x128 .f32) (main_arg1 : FVec F S800000x128 .f32) (main_arg2 : IVec S800000 32) (main_arg3 : IVec S800000 32) (main_arg4 : FVec F S128x128 .f32) (main_arg5 : FVec F S2x128x128 .f32) (main_arg6 : FVec F S128x128 .f32) (main_arg7 : FVec F S3x2x128x128 .f32) (main_arg8 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S2x128x128 .f32 := Host.absf main_arg5
  let main_cst_4 : FVec F S_ .f32 := constant S_ .f32 0x7F800000#32
  let main_v15 : FVec F S2x128x128 .f32 := broadcastInDim S2x128x128 ![] bcast_S_S2x128x128 main_cst_4
  let main_v16 : IVec S2x128x128 1 := cmpf .olt main_v14 main_v15
  fn_part1 (F := F) main_arg6 main_arg7 main_arg8 main_v13 main_v16
-- ==== Kernel.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S2x128x128 : Shape := ⟨3, ![2, 128, 128]⟩
abbrev S3x2x128x128 : Shape := ⟨4, ![3, 2, 128, 128]⟩
abbrev S1 : Shape := ⟨1, ![1]⟩
abbrev S1x128x128 : Shape := ⟨3, ![1, 128, 128]⟩
abbrev S5000x128 : Shape := ⟨2, ![5000, 128]⟩
abbrev S_ : Shape := ⟨0, ![]⟩
abbrev S800000x1 : Shape := ⟨2, ![800000, 1]⟩
abbrev S1x1x128x128 : Shape := ⟨4, ![1, 1, 128, 128]⟩

abbrev nBuf : Space → Nat
  | .hbm => 32
  | .vmem => 19
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S800000, .i32⟩
  | .hbm, ⟨3, _⟩ => ⟨S800000, .i32⟩
  | .hbm, ⟨4, _⟩ => ⟨S128x128, .f32⟩
  | .hbm, ⟨5, _⟩ => ⟨S2x128x128, .f32⟩
  | .hbm, ⟨6, _⟩ => ⟨S128x128, .f32⟩
  | .hbm, ⟨7, _⟩ => ⟨S3x2x128x128, .f32⟩
  | .hbm, ⟨8, _⟩ => ⟨S1, .f32⟩
  | .hbm, ⟨9, _⟩ => ⟨S1x128x128, .f32⟩
  | .hbm, ⟨10, _⟩ => ⟨S128x128, .f32⟩
  | .hbm, ⟨11, _⟩ => ⟨S1x128x128, .f32⟩
  | .hbm, ⟨12, _⟩ => ⟨S128x128, .f32⟩
  | .hbm, ⟨13, _⟩ => ⟨S50000x128, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S_, .f32⟩
  | .hbm, ⟨29, _⟩ => ⟨S50000x128, .f32⟩
  | .hbm, ⟨30, _⟩ => ⟨S50000x128, .f32⟩
  | .hbm, ⟨31, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S3x2x128x128, .f32⟩
  | .local _ .vmem, ⟨17, _⟩ => ⟨S5000x128, .f32⟩
  | .local _ .vmem, ⟨18, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S3x2x128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x128x128_S1x128x128_0_0_0 : S2x128x128.Slices ![0, 0, 0] S1x128x128
  shapeCasts_S1x128x128_S128x128 : S1x128x128.ShapeCasts S128x128
  slices_S2x128x128_S1x128x128_1_0_0 : S2x128x128.Slices ![1, 0, 0] S1x128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S800000 : S_.BroadcastsInDim S800000 (![] : Fin 0 → Fin S800000.rank)
  bcast_S800000_S800000x1_0 : S800000.BroadcastsInDim S800000x1 (![0] : Fin 1 → Fin S800000x1.rank)
  shapeCasts_S5000x128_S5000x128 : S5000x128.ShapeCasts S5000x128
  bcast_S_S50000x128 : S_.BroadcastsInDim S50000x128 (![] : Fin 0 → Fin S50000x128.rank)
  shapeCasts_S1_S_ : S1.ShapeCasts S_
  inb_S3x2x128x128_S1x1x128x128_0_0_0_0 : ∀ a, (![0, 0, 0, 0] : Fin 4 → Nat) a + S1x1x128x128.size a ≤ S3x2x128x128.size a
  h_S1x1x128x128 : 0 < S1x1x128x128.numel
  shapeCasts_S1x1x128x128_S128x128 : S1x1x128x128.ShapeCasts S128x128
  inb_S3x2x128x128_S1x1x128x128_0_1_0_0 : ∀ a, (![0, 1, 0, 0] : Fin 4 → Nat) a + S1x1x128x128.size a ≤ S3x2x128x128.size a
  inb_S3x2x128x128_S1x1x128x128_1_0_0_0 : ∀ a, (![1, 0, 0, 0] : Fin 4 → Nat) a + S1x1x128x128.size a ≤ S3x2x128x128.size a
  inb_S3x2x128x128_S1x1x128x128_1_1_0_0 : ∀ a, (![1, 1, 0, 0] : Fin 4 → Nat) a + S1x1x128x128.size a ≤ S3x2x128x128.size a
  inb_S3x2x128x128_S1x1x128x128_2_0_0_0 : ∀ a, (![2, 0, 0, 0] : Fin 4 → Nat) a + S1x1x128x128.size a ≤ S3x2x128x128.size a
  inb_S3x2x128x128_S1x1x128x128_2_1_0_0 : ∀ a, (![2, 1, 0, 0] : Fin 4 → Nat) a + S1x1x128x128.size a ≤ S3x2x128x128.size a
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S800000x128.size a
  hwx1_0 : ∀ i : grid1.Coords, EltTy.bits .f32 = 32 ∨ (Rect.block (s := S800000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S800000x128.size a
  hwx1_2 : ∀ i : grid1.Coords, EltTy.bits .f32 = 32 ∨ (Rect.block (s := S800000x128) S5000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S800000x128.size a
  hwx1_3 : ∀ i : grid1.Coords, EltTy.bits .f32 = 32 ∨ (Rect.block (s := S800000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S3x2x128x128.size a ≤ S3x2x128x128.size a
  hwx2_2 : ∀ i : grid2.Coords, EltTy.bits .f32 = 32 ∨ (Rect.block (s := S3x2x128x128) S3x2x128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v18) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S3x2x128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S2x128x128 : Shape := ⟨3, ![2, 128, 128]⟩
abbrev S3x2x128x128 : Shape := ⟨4, ![3, 2, 128, 128]⟩
abbrev S1 : Shape := ⟨1, ![1]⟩
abbrev S1x128x128 : Shape := ⟨3, ![1, 128, 128]⟩
abbrev S_ : Shape := ⟨0, ![]⟩
abbrev S800000x1 : Shape := ⟨2, ![800000, 1]⟩
abbrev S1x1x128x128 : Shape := ⟨4, ![1, 1, 128, 128]⟩

abbrev nBuf : Space → Nat
  | .hbm => 176
  | .vmem => 0
  | .smem => 0
  | _ => 0

abbrev hbmTy0_0 (i : Nat) : BufTy := match i % 128 with
  | 0 => ⟨S50000x128, .f32⟩
  | 1 => ⟨S800000x128, .f32⟩
  | 2 => ⟨S800000, .i32⟩
  | 3 => ⟨S800000, .i32⟩
  | 4 => ⟨S128x128, .f32⟩
  | 5 => ⟨S2x128x128, .f32⟩
  | 6 => ⟨S128x128, .f32⟩
  | 7 => ⟨S3x2x128x128, .f32⟩
  | 8 => ⟨S1, .f32⟩
  | 9 => ⟨S1x128x128, .f32⟩
  | 10 => ⟨S128x128, .f32⟩
  | 11 => ⟨S1x128x128, .f32⟩
  | 12 => ⟨S128x128, .f32⟩
  | 13 => ⟨S50000x128, .f32⟩
  | 14 => ⟨S50000x128, .f32⟩
  | 15 => ⟨S50000x128, .f32⟩
  | 16 => ⟨S_, .f32⟩
  | 17 => ⟨S50000x128, .f32⟩
  | 18 => ⟨S50000x128, .f32⟩
  | 19 => ⟨S_, .f32⟩
  | 20 => ⟨S50000x128, .f32⟩
  | 21 => ⟨S50000x128, .f32⟩
  | 22 => ⟨S50000x128, .f32⟩
  | 23 => ⟨S_, .f32⟩
  | 24 => ⟨S50000x128, .f32⟩
  | 25 => ⟨S50000x128, .f32⟩
  | 26 => ⟨S50000x128, .f32⟩
  | 27 => ⟨S50000x128, .f32⟩
  | 28 => ⟨S50000x128, .f32⟩
  | 29 => ⟨S_, .f32⟩
  | 30 => ⟨S50000x128, .f32⟩
  | 31 => ⟨S50000x128, .f32⟩
  | 32 => ⟨S_, .f32⟩
  | 33 => ⟨S50000x128, .f32⟩
  | 34 => ⟨S50000x128, .f32⟩
  | 35 => ⟨S50000x128, .f32⟩
  | 36 => ⟨S_, .f32⟩
  | 37 => ⟨S50000x128, .f32⟩
  | 38 => ⟨S50000x128, .f32⟩
  | 39 => ⟨S50000x128, .f32⟩
  | 40 => ⟨S_, .f32⟩
  | 41 => ⟨S50000x128, .f32⟩
  | 42 => ⟨S50000x128, .f32⟩
  | 43 => ⟨S800000x128, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x128, .f32⟩
  | 53 => ⟨S800000x128, .f32⟩
  | 54 => ⟨S_, .f32⟩
  | 55 => ⟨S50000x128, .f32⟩
  | 56 => ⟨S800000x1, .i32⟩
  | 57 => ⟨S50000x128, .f32⟩
  | 58 => ⟨S_, .f32⟩
  | 59 => ⟨S50000x128, .f32⟩
  | 60 => ⟨S50000x128, .f32⟩
  | 61 => ⟨S50000x128, .f32⟩
  | 62 => ⟨S50000x128, .f32⟩
  | 63 => ⟨S50000x128, .f32⟩
  | 64 => ⟨S_, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S1x1x128x128, .f32⟩
  | 75 => ⟨S128x128, .f32⟩
  | 76 => ⟨S1x1x128x128, .f32⟩
  | 77 => ⟨S128x128, .f32⟩
  | 78 => ⟨S50000x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S_, .f32⟩
  | 85 => ⟨S50000x128, .f32⟩
  | 86 => ⟨S50000x128, .f32⟩
  | 87 => ⟨S50000x128, .f32⟩
  | 88 => ⟨S_, .f32⟩
  | 89 => ⟨S50000x128, .f32⟩
  | 90 => ⟨S50000x128, .f32⟩
  | 91 => ⟨S50000x128, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S_, .f32⟩
  | 98 => ⟨S50000x128, .f32⟩
  | 99 => ⟨S50000x128, .f32⟩
  | 100 => ⟨S50000x128, .f32⟩
  | 101 => ⟨S_, .f32⟩
  | 102 => ⟨S50000x128, .f32⟩
  | 103 => ⟨S50000x128, .f32⟩
  | 104 => ⟨S50000x128, .f32⟩
  | 105 => ⟨S_, .f32⟩
  | 106 => ⟨S50000x128, .f32⟩
  | 107 => ⟨S50000x128, .f32⟩
  | 108 => ⟨S1x1x128x128, .f32⟩
  | 109 => ⟨S128x128, .f32⟩
  | 110 => ⟨S1x1x128x128, .f32⟩
  | 111 => ⟨S128x128, .f32⟩
  | 112 => ⟨S50000x128, .f32⟩
  | 113 => ⟨S50000x128, .f32⟩
  | 114 => ⟨S50000x128, .f32⟩
  | 115 => ⟨S_, .f32⟩
  | 116 => ⟨S50000x128, .f32⟩
  | 117 => ⟨S50000x128, .f32⟩
  | 118 => ⟨S_, .f32⟩
  | 119 => ⟨S50000x128, .f32⟩
  | 120 => ⟨S50000x128, .f32⟩
  | 121 => ⟨S50000x128, .f32⟩
  | 122 => ⟨S_, .f32⟩
  | 123 => ⟨S50000x128, .f32⟩
  | 124 => ⟨S50000x128, .f32⟩
  | 125 => ⟨S50000x128, .f32⟩
  | 126 => ⟨S50000x128, .f32⟩
  | 127 => ⟨S50000x128, .f32⟩
  | _ => ⟨S50000x128, .f32⟩

abbrev hbmTy0_1 (i : Nat) : BufTy := match i % 128 with
  | 0 => ⟨S_, .f32⟩
  | 1 => ⟨S50000x128, .f32⟩
  | 2 => ⟨S50000x128, .f32⟩
  | 3 => ⟨S_, .f32⟩
  | 4 => ⟨S50000x128, .f32⟩
  | 5 => ⟨S50000x128, .f32⟩
  | 6 => ⟨S50000x128, .f32⟩
  | 7 => ⟨S_, .f32⟩
  | 8 => ⟨S50000x128, .f32⟩
  | 9 => ⟨S50000x128, .f32⟩
  | 10 => ⟨S50000x128, .f32⟩
  | 11 => ⟨S_, .f32⟩
  | 12 => ⟨S50000x128, .f32⟩
  | 13 => ⟨S50000x128, .f32⟩
  | 14 => ⟨S1x1x128x128, .f32⟩
  | 15 => ⟨S128x128, .f32⟩
  | 16 => ⟨S1x1x128x128, .f32⟩
  | 17 => ⟨S128x128, .f32⟩
  | 18 => ⟨S50000x128, .f32⟩
  | 19 => ⟨S50000x128, .f32⟩
  | 20 => ⟨S50000x128, .f32⟩
  | 21 => ⟨S_, .f32⟩
  | 22 => ⟨S50000x128, .f32⟩
  | 23 => ⟨S50000x128, .f32⟩
  | 24 => ⟨S_, .f32⟩
  | 25 => ⟨S50000x128, .f32⟩
  | 26 => ⟨S50000x128, .f32⟩
  | 27 => ⟨S50000x128, .f32⟩
  | 28 => ⟨S_, .f32⟩
  | 29 => ⟨S50000x128, .f32⟩
  | 30 => ⟨S50000x128, .f32⟩
  | 31 => ⟨S50000x128, .f32⟩
  | 32 => ⟨S50000x128, .f32⟩
  | 33 => ⟨S50000x128, .f32⟩
  | 34 => ⟨S_, .f32⟩
  | 35 => ⟨S50000x128, .f32⟩
  | 36 => ⟨S50000x128, .f32⟩
  | 37 => ⟨S_, .f32⟩
  | 38 => ⟨S50000x128, .f32⟩
  | 39 => ⟨S50000x128, .f32⟩
  | 40 => ⟨S50000x128, .f32⟩
  | 41 => ⟨S_, .f32⟩
  | 42 => ⟨S50000x128, .f32⟩
  | 43 => ⟨S50000x128, .f32⟩
  | 44 => ⟨S50000x128, .f32⟩
  | 45 => ⟨S_, .f32⟩
  | 46 => ⟨S50000x128, .f32⟩
  | 47 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_call1_v0 : Ref sig .tc := ⟨.hbm, 27, rfl⟩
abbrev main_call1_v1 : Ref sig .tc := ⟨.hbm, 28, rfl⟩
abbrev main_call1_cst : Ref sig .tc := ⟨.hbm, 29, rfl⟩
abbrev main_call1_v2 : Ref sig .tc := ⟨.hbm, 30, rfl⟩
abbrev main_call1_v3 : Ref sig .tc := ⟨.hbm, 31, rfl⟩
abbrev main_call1_cst_0 : Ref sig .tc := ⟨.hbm, 32, rfl⟩
abbrev main_call1_v4 : Ref sig .tc := ⟨.hbm, 33, rfl⟩
abbrev main_call1_v5 : Ref sig .tc := ⟨.hbm, 34, rfl⟩
abbrev main_v9 : Ref sig .tc := ⟨.hbm, 35, rfl⟩
abbrev main_cst_0 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_cst_1 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_c : Ref sig .tc := ⟨.hbm, 44, rfl⟩
abbrev main_v16 : Ref sig .tc := ⟨.hbm, 45, rfl⟩
abbrev main_v17 : Ref sig .tc := ⟨.hbm, 46, rfl⟩
abbrev main_c_2 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_cst_3 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_call2_v0 : Ref sig .tc := ⟨.hbm, 62, rfl⟩
abbrev main_call2_v1 : Ref sig .tc := ⟨.hbm, 63, rfl⟩
abbrev main_call2_cst : Ref sig .tc := ⟨.hbm, 64, rfl⟩
abbrev main_call2_v2 : Ref sig .tc := ⟨.hbm, 65, rfl⟩
abbrev main_call2_v3 : Ref sig .tc := ⟨.hbm, 66, rfl⟩
abbrev main_call2_cst_0 : Ref sig .tc := ⟨.hbm, 67, rfl⟩
abbrev main_call2_v4 : Ref sig .tc := ⟨.hbm, 68, rfl⟩
abbrev main_call2_v5 : Ref sig .tc := ⟨.hbm, 69, rfl⟩
abbrev main_v31 : Ref sig .tc := ⟨.hbm, 70, rfl⟩
abbrev main_cst_4 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_call3_v0 : Ref sig .tc := ⟨.hbm, 79, rfl⟩
abbrev main_call3_v1 : Ref sig .tc := ⟨.hbm, 80, rfl⟩
abbrev main_call3_cst : Ref sig .tc := ⟨.hbm, 81, rfl⟩
abbrev main_call3_v2 : Ref sig .tc := ⟨.hbm, 82, rfl⟩
abbrev main_call3_v3 : Ref sig .tc := ⟨.hbm, 83, rfl⟩
abbrev main_call3_cst_0 : Ref sig .tc := ⟨.hbm, 84, rfl⟩
abbrev main_call3_v4 : Ref sig .tc := ⟨.hbm, 85, rfl⟩
abbrev main_call3_v5 : Ref sig .tc := ⟨.hbm, 86, rfl⟩
abbrev main_v39 : Ref sig .tc := ⟨.hbm, 87, rfl⟩
abbrev main_cst_5 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_call4_v0 : Ref sig .tc := ⟨.hbm, 92, rfl⟩
abbrev main_call4_v1 : Ref sig .tc := ⟨.hbm, 93, rfl⟩
abbrev main_call4_cst : Ref sig .tc := ⟨.hbm, 94, rfl⟩
abbrev main_call4_v2 : Ref sig .tc := ⟨.hbm, 95, rfl⟩
abbrev main_call4_v3 : Ref sig .tc := ⟨.hbm, 96, rfl⟩
abbrev main_call4_cst_0 : Ref sig .tc := ⟨.hbm, 97, rfl⟩
abbrev main_call4_v4 : Ref sig .tc := ⟨.hbm, 98, rfl⟩
abbrev main_call4_v5 : Ref sig .tc := ⟨.hbm, 99, rfl⟩
abbrev main_v43 : Ref sig .tc := ⟨.hbm, 100, rfl⟩
abbrev main_cst_6 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_cst_7 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_call5_v0 : Ref sig .tc := ⟨.hbm, 113, rfl⟩
abbrev main_call5_v1 : Ref sig .tc := ⟨.hbm, 114, rfl⟩
abbrev main_call5_cst : Ref sig .tc := ⟨.hbm, 115, rfl⟩
abbrev main_call5_v2 : Ref sig .tc := ⟨.hbm, 116, rfl⟩
abbrev main_call5_v3 : Ref sig .tc := ⟨.hbm, 117, rfl⟩
abbrev main_call5_cst_0 : Ref sig .tc := ⟨.hbm, 118, rfl⟩
abbrev main_call5_v4 : Ref sig .tc := ⟨.hbm, 119, rfl⟩
abbrev main_call5_v5 : Ref sig .tc := ⟨.hbm, 120, rfl⟩
abbrev main_v54 : Ref sig .tc := ⟨.hbm, 121, rfl⟩
abbrev main_cst_8 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev main_call6_v0 : Ref sig .tc := ⟨.hbm, 126, rfl⟩
abbrev main_call6_v1 : Ref sig .tc := ⟨.hbm, 127, rfl⟩
abbrev main_call6_cst : Ref sig .tc := ⟨.hbm, 128, rfl⟩
abbrev main_call6_v2 : Ref sig .tc := ⟨.hbm, 129, rfl⟩
abbrev main_call6_v3 : Ref sig .tc := ⟨.hbm, 130, rfl⟩
abbrev main_call6_cst_0 : Ref sig .tc := ⟨.hbm, 131, rfl⟩
abbrev main_call6_v4 : Ref sig .tc := ⟨.hbm, 132, rfl⟩
abbrev main_call6_v5 : Ref sig .tc := ⟨.hbm, 133, rfl⟩
abbrev main_v58 : Ref sig .tc := ⟨.hbm, 134, rfl⟩
abbrev main_cst_9 : Ref sig .tc := ⟨.hbm, 135, rfl⟩
abbrev main_v59 : Ref sig .tc := ⟨.hbm, 136, rfl⟩
abbrev main_v60 : Ref sig .tc := ⟨.hbm, 137, rfl⟩
abbrev main_v61 : Ref sig .tc := ⟨.hbm, 138, rfl⟩
abbrev main_cst_10 : Ref sig .tc := ⟨.hbm, 139, rfl⟩
abbrev main_v62 : Ref sig .tc := ⟨.hbm, 140, rfl⟩
abbrev main_v63 : Ref sig .tc := ⟨.hbm, 141, rfl⟩
abbrev main_v64 : Ref sig .tc := ⟨.hbm, 142, rfl⟩
abbrev main_v65 : Ref sig .tc := ⟨.hbm, 143, rfl⟩
abbrev main_v66 : Ref sig .tc := ⟨.hbm, 144, rfl⟩
abbrev main_v67 : Ref sig .tc := ⟨.hbm, 145, rfl⟩
abbrev main_v68 : Ref sig .tc := ⟨.hbm, 146, rfl⟩
abbrev main_call7_v0 : Ref sig .tc := ⟨.hbm, 147, rfl⟩
abbrev main_call7_v1 : Ref sig .tc := ⟨.hbm, 148, rfl⟩
abbrev main_call7_cst : Ref sig .tc := ⟨.hbm, 149, rfl⟩
abbrev main_call7_v2 : Ref sig .tc := ⟨.hbm, 150, rfl⟩
abbrev main_call7_v3 : Ref sig .tc := ⟨.hbm, 151, rfl⟩
abbrev main_call7_cst_0 : Ref sig .tc := ⟨.hbm, 152, rfl⟩
abbrev main_call7_v4 : Ref sig .tc := ⟨.hbm, 153, rfl⟩
abbrev main_call7_v5 : Ref sig .tc := ⟨.hbm, 154, rfl⟩
abbrev main_v69 : Ref sig .tc := ⟨.hbm, 155, rfl⟩
abbrev main_cst_11 : Ref sig .tc := ⟨.hbm, 156, rfl⟩
abbrev main_v70 : Ref sig .tc := ⟨.hbm, 157, rfl⟩
abbrev main_v71 : Ref sig .tc := ⟨.hbm, 158, rfl⟩
abbrev main_v72 : Ref sig .tc := ⟨.hbm, 159, rfl⟩
abbrev main_call8_v0 : Ref sig .tc := ⟨.hbm, 160, rfl⟩
abbrev main_call8_v1 : Ref sig .tc := ⟨.hbm, 161, rfl⟩
abbrev main_call8_cst : Ref sig .tc := ⟨.hbm, 162, rfl⟩
abbrev main_call8_v2 : Ref sig .tc := ⟨.hbm, 163, rfl⟩
abbrev main_call8_v3 : Ref sig .tc := ⟨.hbm, 164, rfl⟩
abbrev main_call8_cst_0 : Ref sig .tc := ⟨.hbm, 165, rfl⟩
abbrev main_call8_v4 : Ref sig .tc := ⟨.hbm, 166, rfl⟩
abbrev main_call8_v5 : Ref sig .tc := ⟨.hbm, 167, rfl⟩
abbrev main_v73 : Ref sig .tc := ⟨.hbm, 168, rfl⟩
abbrev main_cst_12 : Ref sig .tc := ⟨.hbm, 169, rfl⟩
abbrev main_v74 : Ref sig .tc := ⟨.hbm, 170, rfl⟩
abbrev main_v75 : Ref sig .tc := ⟨.hbm, 171, rfl⟩
abbrev main_v76 : Ref sig .tc := ⟨.hbm, 172, rfl⟩
abbrev main_cst_13 : Ref sig .tc := ⟨.hbm, 173, rfl⟩
abbrev main_v77 : Ref sig .tc := ⟨.hbm, 174, rfl⟩
abbrev main_v78 : Ref sig .tc := ⟨.hbm, 175, rfl⟩

abbrev nD : Nat := 1
abbrev τ : Topo := Topo.v7x

variable {F : FTy → Type} [FloatOps F]

class Facts₀ : Prop where
  slices_S2x128x128_S1x128x128_0_0_0 : S2x128x128.Slices ![0, 0, 0] S1x128x128
  shapeCasts_S1x128x128_S128x128 : S1x128x128.ShapeCasts S128x128
  slices_S2x128x128_S1x128x128_1_0_0 : S2x128x128.Slices ![1, 0, 0] S1x128x128
  bcast_S_S50000x128 : S_.BroadcastsInDim S50000x128 (![] : Fin 0 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  shapeCasts_S1_S_ : S1.ShapeCasts S_
  slices_S3x2x128x128_S1x1x128x128_0_0_0_0 : S3x2x128x128.Slices ![0, 0, 0, 0] S1x1x128x128
  shapeCasts_S1x1x128x128_S128x128 : S1x1x128x128.ShapeCasts S128x128
  slices_S3x2x128x128_S1x1x128x128_0_1_0_0 : S3x2x128x128.Slices ![0, 1, 0, 0] S1x1x128x128
  slices_S3x2x128x128_S1x1x128x128_1_0_0_0 : S3x2x128x128.Slices ![1, 0, 0, 0] S1x1x128x128
  slices_S3x2x128x128_S1x1x128x128_1_1_0_0 : S3x2x128x128.Slices ![1, 1, 0, 0] S1x1x128x128
  slices_S3x2x128x128_S1x1x128x128_2_0_0_0 : S3x2x128x128.Slices ![2, 0, 0, 0] S1x1x128x128
  slices_S3x2x128x128_S1x1x128x128_2_1_0_0 : S3x2x128x128.Slices ![2, 1, 0, 0] S1x1x128x128
  dot_S50000x128_S128x128_S50000x128_1_0_0_1_n_n_wf : DotDims.WF S50000x128 S128x128 S50000x128 [1] [0] [0] [1] [] []
  dot_S800000x128_S128x128_S800000x128_1_0_0_1_n_n_wf : DotDims.WF S800000x128 S128x128 S800000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.Spec.lean ====
/-
  The layer's mathematics, row by row, on the extended reals.

  Every stage of this message-passing block acts on one row of 128 features at a time: a dense map
  v ↦ (Σ_k v_k · w_{k j})_j, the scaled activation y ↦ y · σ(y) · (5/3 as a single-precision word), and the
  residual step v ↦ (v + layer (layer v w₀) w₁) · (1/√2 as a single-precision word). Arrays of any number of
  rows are mapped row by row, so taking some rows of an array commutes with every stage: a block of the
  result is the result of the block.
-/
import Idealize.ShloMosaic.PureOps.Ideal
import Idealize.ShloMosaic.Lib.ValueIdx

noncomputable section

open scoped BigOperators

namespace Cert.Spec

open Idealize.ShloMosaic Idealize.ShloMosaic.ValueIdx

/-- An array of `R` rows of 128 features. -/
abbrev Rows (R : ℕ) : Shape := ⟨2, ![R, 128]⟩
/-- A 128 × 128 weight matrix. -/
abbrev SW : Shape := ⟨2, ![128, 128]⟩
/-- The stack of the three residual blocks' two weight matrices each. -/
abbrev SW4 : Shape := ⟨4, ![3, 2, 128, 128]⟩

/-- The activation's scale, the single-precision word nearest 5/3. -/
def cAct : EReal := Ideal.ofBits .f32 0x3FD55555#32
/-- The residual step's scale, the single-precision word nearest 1/√2. -/
def cRes : EReal := Ideal.ofBits .f32 0x3F3504F3#32

/-- The scaled activation y · σ(y) · cAct. -/
def act (y : EReal) : EReal := y * Ideal.logistic y * cAct

/-- A row times a weight matrix. -/
def dense (v : Fin 128 → EReal) (w : Fin 128 → Fin 128 → EReal) (j : Fin 128) : EReal := ∑ k : Fin 128, v k * w k j

/-- A dense map followed by the scaled activation. -/
def layer (v : Fin 128 → EReal) (w : Fin 128 → Fin 128 → EReal) (j : Fin 128) : EReal := act (dense v w j)

/-- The residual step: two layers, added back onto the row, scaled. -/
def resid (v : Fin 128 → EReal) (w₀ w₁ : Fin 128 → Fin 128 → EReal) (q : Fin 128) : EReal :=
  (v q + layer (layer v w₀) w₁ q) * cRes

/-- A weight array read as a matrix. -/
def mat (w : SW.Idx → EReal) : Fin 128 → Fin 128 → EReal := fun k j => w (ix2 k j)

/-- Matrix (l, s) of the weight stack. -/
def mat4 (w : SW4.Idx → EReal) (l : Fin 3) (s : Fin 2) : Fin 128 → Fin 128 → EReal := fun k j => w (ix4 l s k j)

/-- Row `r` of an array. -/
def row {R : ℕ} (X : (Rows R).Idx → EReal) (r : Fin R) : Fin 128 → EReal := fun k => X (ix2 r k)

/-- A dense map of every row. -/
def denseArr {R : ℕ} (X : (Rows R).Idx → EReal) (w : Fin 128 → Fin 128 → EReal) : (Rows R).Idx → EReal :=
  fun i => dense (row X (i 0)) w (i 1)

/-- A layer of every row. -/
def layerArr {R : ℕ} (X : (Rows R).Idx → EReal) (w : Fin 128 → Fin 128 → EReal) : (Rows R).Idx → EReal :=
  fun i => layer (row X (i 0)) w (i 1)

/-- The residual step of every row. -/
def residArr {R : ℕ} (X : (Rows R).Idx → EReal) (w₀ w₁ : Fin 128 → Fin 128 → EReal) : (Rows R).Idx → EReal :=
  fun i => resid (row X (i 0)) w₀ w₁ (i 1)

/-- The edge stage: each edge's features times a weight matrix, times the gathered node row, entry by entry. -/
def edgeArr {R : ℕ} (B : (Rows R).Idx → EReal) (w : Fin 128 → Fin 128 → EReal) (H : (Rows R).Idx → EReal) :
    (Rows R).Idx → EReal :=
  fun i => denseArr B w i * H i

/-- The stage after aggregation: one layer, then the three residual blocks of the weight stack. -/
def postArr {R : ℕ} (X : (Rows R).Idx → EReal) (w : Fin 128 → Fin 128 → EReal) (ws : Fin 3 → Fin 2 → Fin 128 → Fin 128 → EReal) :
    (Rows R).Idx → EReal :=
  residArr (residArr (residArr (layerArr X w) (ws 0 0) (ws 0 1)) (ws 1 0) (ws 1 1)) (ws 2 0) (ws 2 1)

/-- Some rows of an array, chosen by `f`. -/
def rowsAt {R B : ℕ} (f : Fin B → Fin R) (X : (Rows R).Idx → EReal) : (Rows B).Idx → EReal :=
  fun y => X (ix2 (f (y 0)) (y 1))

theorem row_rowsAt {R B : ℕ} (f : Fin B → Fin R) (X : (Rows R).Idx → EReal) (p : Fin B) :
    row (rowsAt f X) p = row X (f p) := rfl

/-- Taking rows commutes with a dense map. -/
theorem rowsAt_denseArr {R B : ℕ} (f : Fin B → Fin R) (X : (Rows R).Idx → EReal) (w : Fin 128 → Fin 128 → EReal) :
    rowsAt f (denseArr X w) = denseArr (rowsAt f X) w := rfl

/-- Taking rows commutes with a layer. -/
theorem rowsAt_layerArr {R B : ℕ} (f : Fin B → Fin R) (X : (Rows R).Idx → EReal) (w : Fin 128 → Fin 128 → EReal) :
    rowsAt f (layerArr X w) = layerArr (rowsAt f X) w := rfl

/-- Taking rows commutes with the residual step. -/
theorem rowsAt_residArr {R B : ℕ} (f : Fin B → Fin R) (X : (Rows R).Idx → EReal) (w₀ w₁ : Fin 128 → Fin 128 → EReal) :
    rowsAt f (residArr X w₀ w₁) = residArr (rowsAt f X) w₀ w₁ := rfl

/-- Taking rows commutes with the edge stage. -/
theorem rowsAt_edgeArr {R B : ℕ} (f : Fin B → Fin R) (X : (Rows R).Idx → EReal) (w : Fin 128 → Fin 128 → EReal)
    (H : (Rows R).Idx → EReal) : rowsAt f (edgeArr X w H) = edgeArr (rowsAt f X) w (rowsAt f H) := rfl

/-- Taking rows commutes with the stage after aggregation. -/
theorem rowsAt_postArr {R B : ℕ} (f : Fin B → Fin R) (X : (Rows R).Idx → EReal) (w : Fin 128 → Fin 128 → EReal)
    (ws : Fin 3 → Fin 2 → Fin 128 → Fin 128 → EReal) : rowsAt f (postArr X w ws) = postArr (rowsAt f X) w ws := rfl

end Cert.Spec

end
-- ==== Proof.LibPlainDot.lean ====
/-
  The plain matrix product read at an index.

  For the dimension numbers of an M×K by K×N product (contract the left operand's axis 1 with the right operand's
  axis 0, no batch axes), the sum over the contraction index that both a matmul into a zero accumulator and a
  host dot_general denote at the ideal values is the textbook one: entry (p, q) is the sum over l of
  lhs (p, l) · rhs (l, q).
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : ℕ}

/-- Row coordinate of the left operand's index: the output's row. -/
theorem lhs_row (j : (⟨2, ![M, N]⟩ : Shape).Idx) (k : (DotDims.plain M K N).contr.Idx) :
    ((DotDims.plain M K N).lhsIdx j k 0).val = (j 0).val := by
  unfold DotDims.lhsIdx
  have hb : ¬(0 : Fin 2) ∈ (DotDims.plain M K N).lhsBatch := List.not_mem_nil
  have hn : (0 : Fin 2) ∈ (DotDims.plain M K N).lhsNonContracting := List.mem_singleton.mpr rfl
  rw [dif_neg hb, dif_pos hn]
  rfl

/-- Column coordinate of the left operand's index: the contraction position. -/
theorem lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- Row coordinate of the right operand's index: the contraction position. -/
theorem rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- Column coordinate of the right operand's index: the output's column. -/
theorem rhs_col (j : (⟨2, ![M, N]⟩ : Shape).Idx) (k : (DotDims.plain M K N).contr.Idx) :
    ((DotDims.plain M K N).rhsIdx j k 1).val = (j 1).val := by
  unfold DotDims.rhsIdx
  have hb : ¬(1 : Fin 2) ∈ (DotDims.plain M K N).rhsBatch := List.not_mem_nil
  have hn : (1 : Fin 2) ∈ (DotDims.plain M K N).rhsNonContracting := List.mem_singleton.mpr rfl
  rw [dif_neg hb, dif_pos hn]
  rfl

/-- The contraction sum of a plain product at entry (p, q), re-indexed by the one contraction coordinate. -/
theorem contr_sum (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ l : Fin K, lhs (ix2 p l) * rhs (ix2 l q) := by
  rw [← Equiv.sum_comp (contrEquiv1 (DotDims.plain M K N) K rfl rfl).symm]
  refine Finset.sum_congr rfl fun l _ => ?_
  have hl := contrEquiv1_symm_val (DotDims.plain M K N) K rfl rfl l
  have el : (DotDims.plain M K N).lhsIdx (ix2 p q) ((contrEquiv1 (DotDims.plain M K N) K rfl rfl).symm l) = ix2 p l :=
    funext fun a => Fin.ext (by
      match a with
      | ⟨0, _⟩ => exact lhs_row _ _
      | ⟨1, _⟩ => exact (lhs_col _ _).trans hl)
  have er : (DotDims.plain M K N).rhsIdx (ix2 p q) ((contrEquiv1 (DotDims.plain M K N) K rfl rfl).symm l) = ix2 l q :=
    funext fun a => Fin.ext (by
      match a with
      | ⟨0, _⟩ => exact (rhs_row _ _).trans hl
      | ⟨1, _⟩ => exact rhs_col _ _)
  rw [el, er]

/-- A matmul of plain dimension numbers into the zero accumulator, at the ideal values, read at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ l : Fin K, lhs (ix2 p l) * rhs (ix2 l q) :=
  (Ideal.matmul_constant_zero_apply (DotDims.plain M K N) prec lhs rhs (ix2 p q)).trans (contr_sum lhs rhs p q)

/-- A host dot_general of plain dimension numbers, at the ideal values, read at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  (Ideal.dotGeneral_apply (DotDims.plain M K N) prec sched lhs rhs (ix2 p q)).trans (contr_sum lhs rhs p q)

end Cert.LibPlainDot

end
-- ==== Proof.RowOps.lean ====
/-
  The kernel's and the host's operation chains, as the row functions of the specification.

  A matrix product of a block of rows with a 128 × 128 weight (the kernel's, into a zero accumulator, after
  format changes that are the identity on the extended reals; or the host's) is the dense map of every row.
  The kernel's y · σ(y) · c and the host's y · (1 / (1 + e^(−y))) · c are the same scaled activation: the
  logistic function IS 1 / (1 + e^(−y)) on the extended reals, and the word 0x3F800000 is 1.
-/
import proofs.«134382_j13142599926314_1_alg».proof.Proof.Spec
import proofs.«134382_j13142599926314_1_alg».proof.Proof.LibPlainDot
import Idealize.ShloMosaic.Lib.IdealHost
import Idealize.ShloMosaic.Lib.Pipeline.Value

noncomputable section

open scoped BigOperators

namespace Cert.RowOps

open Idealize.ShloMosaic Idealize.ShloMosaic.ValueIdx Cert.Spec

variable {R : ℕ}

/-- The kernel's product of a block of rows with a weight matrix is the dense map of every row. -/
theorem matmul_rows (d : DotDims (Rows R) SW (Rows R)) (hd : d = DotDims.plain R 128 128)
    (x : FVec Ideal (Rows R) .f32) (w : FVec Ideal SW .f32) (h₁ h₂ : FTy.bf16.bits < FTy.f32.bits) :
    matmul d none (truncf .bf16 x h₁) (truncf .bf16 w h₂) (constant (F := Ideal) (Rows R) .f32 0x00000000#32)
      = denseArr x (mat w) := by
  subst hd
  funext i
  obtain ⟨p, q, rfl⟩ : ∃ (p : Fin R) (q : Fin 128), i = ix2 p q := ⟨i 0, i 1, eq_ix2 i⟩
  exact Cert.LibPlainDot.matmul_zero_apply none _ _ p q

/-- The host's product of an array of rows with a weight matrix is the dense map of every row. -/
theorem dotGeneral_rows (d : DotDims (Rows R) SW (Rows R)) (hd : d = DotDims.plain R 128 128)
    (x : FVec Ideal (Rows R) .f32) (w : FVec Ideal SW .f32) :
    Host.dotGeneral d none x w = denseArr x (mat w) := by
  subst hd
  funext i
  obtain ⟨p, q, rfl⟩ : ∃ (p : Fin R) (q : Fin 128), i = ix2 p q := ⟨i 0, i 1, eq_ix2 i⟩
  exact Cert.LibPlainDot.dotGeneral_apply none .single _ _ p q

/-- The kernel's scaled activation of an array, entry by entry. -/
theorem kernel_act (M : FVec Ideal (Rows R) .f32) :
    mulf (mulf M (logistic M)) (broadcast (Rows R) (Scalar.ofBits (F := Ideal) .f32 0x3FD55555#32)) = fun i => act (M i) := rfl

/-- The host's scaled activation of an array — jax's expansion of the logistic function into negate, exponential,
    add and divide — entry by entry. -/
theorem host_act (D : FVec Ideal (Rows R) .f32) (h : (⟨0, ![]⟩ : Shape).BroadcastsInDim (Rows R) ![]) :
    mulf (mulf D (Host.divf (broadcastInDim (Rows R) ![] h (constant (F := Ideal) ⟨0, ![]⟩ .f32 0x3F800000#32))
        (addf (broadcastInDim (Rows R) ![] h (constant (F := Ideal) ⟨0, ![]⟩ .f32 0x3F800000#32)) (Host.exp (Host.negf D)))))
      (broadcastInDim (Rows R) ![] h (constant (F := Ideal) ⟨0, ![]⟩ .f32 0x3FD55555#32)) = fun i => act (D i) := by
  funext i
  show D i * Ideal.div (broadcastInDim (Rows R) ![] h (constant (F := Ideal) ⟨0, ![]⟩ .f32 0x3F800000#32) i)
      (broadcastInDim (Rows R) ![] h (constant (F := Ideal) ⟨0, ![]⟩ .f32 0x3F800000#32) i + Ideal.exp (-(D i)))
      * broadcastInDim (Rows R) ![] h (constant (F := Ideal) ⟨0, ![]⟩ .f32 0x3FD55555#32) i = _
  rw [broadcastInDim_scalar_apply, broadcastInDim_scalar_apply]
  show D i * Ideal.div (Ideal.ofBits .f32 0x3F800000#32) (Ideal.ofBits .f32 0x3F800000#32 + Ideal.exp (-(D i))) * cAct = _
  rw [Ideal.ofBits_one_f32]
  rfl

/-- A layer of every row is the activation of the dense map's entries. -/
theorem layerArr_eq (X : (Rows R).Idx → EReal) (w : Fin 128 → Fin 128 → EReal) :
    layerArr X w = fun i => act (denseArr X w i) := rfl

/-- The kernel's residual step of a block: add back, scale. -/
theorem kernel_resid (X Y : FVec Ideal (Rows R) .f32) :
    mulf (addf X Y) (broadcast (Rows R) (Scalar.ofBits (F := Ideal) .f32 0x3F3504F3#32)) = fun i => (X i + Y i) * cRes := rfl

/-- The host's residual step of an array: add back, scale. -/
theorem host_resid (X Y : FVec Ideal (Rows R) .f32) (h : (⟨0, ![]⟩ : Shape).BroadcastsInDim (Rows R) ![]) :
    mulf (addf X Y) (broadcastInDim (Rows R) ![] h (constant (F := Ideal) ⟨0, ![]⟩ .f32 0x3F3504F3#32))
      = fun i => (X i + Y i) * cRes := by
  funext i
  show (X i + Y i) * broadcastInDim (Rows R) ![] h (constant (F := Ideal) ⟨0, ![]⟩ .f32 0x3F3504F3#32) i = _
  rw [broadcastInDim_scalar_apply]
  rfl

/-- The residual step of every row, from the two layers' array. -/
theorem residArr_eq (X : (Rows R).Idx → EReal) (w₀ w₁ : Fin 128 → Fin 128 → EReal) :
    residArr X w₀ w₁ = fun i => (X i + layerArr (layerArr X w₀) w₁ i) * cRes := by
  funext i
  obtain ⟨p, q, rfl⟩ : ∃ (p : Fin R) (q : Fin 128), i = ix2 p q := ⟨i 0, i 1, eq_ix2 i⟩
  rfl

end Cert.RowOps

end
-- ==== Proof.LibMatmulNT.lean ====
/-
  Two general facts about values read at an index, at the exact (extended-real) reading of the float operations.

  * The product `A · Bᵀ` of an `m × k` and an `n × k` matrix — a matrix unit's product whose dimension numbers contract
    the LAST axis of both operands and keep no batch axis — accumulated into the zero matrix, read at `(a, b)`, is the
    inner product of row `a` of `A` with row `b` of `B`:  Σ_{c < k} A[a, c] · B[b, c].
  * A block `[1, 1, a, b]` viewed as the matrix `[a, b]` reads `(0, 0, i, j)` at `(i, j)`.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Gram

open Idealize.ShloMosaic Idealize.ShloMosaic.ValueIdx

/-- `A · Bᵀ` into the zero accumulator, read at `(a, b)`: the inner product of the two rows. `w` is the record's
    well-formedness, which a program states. -/
theorem matmul_nt_zero_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- A `[1, 1, a, b]` block cast to the matrix `[a, b]` reads, at `(i, j)`, the block at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

end Cert.Gram

end
-- ==== Proof.KBody.lean ====
/-
  What each kernel body leaves in its output block, as the specification's row functions of its input blocks.

  The pre-residual kernel maps a block of node rows by the residual step; the edge kernel multiplies each edge row's
  dense map by the gathered node row, entry by entry; the last kernel applies one layer and then the three residual
  blocks of the weight stack, whose matrices it reads as [1,1,128,128] pieces of the stack viewed as matrices.
-/
import proofs.«134382_j13142599926314_1_alg».proof.Proof.Gen.KernelIdeal.Frame
import proofs.«134382_j13142599926314_1_alg».proof.Proof.RowOps
import proofs.«134382_j13142599926314_1_alg».proof.Proof.LibMatmulNT

noncomputable section

namespace Cert.KernelIdeal.Body

open Cert.KernelIdeal Cert.KernelIdeal.Gen Cert.Spec Cert.RowOps
open Idealize.ShloMosaic Idealize.ShloMosaic.ValueIdx Idealize.ShloMosaic.Pipeline

theorem zero2 : (![0, 0] : Fin 2 → Nat) = fun _ => 0 := funext fun a => by fin_cases a <;> rfl

/-- The kernel's product of a block of 5000 rows with a weight matrix: the dense map of every row. -/
theorem matmul_block (x : FVec Ideal S5000x128 .f32) (w : FVec Ideal S128x128 .f32) (h₁ h₂ : FTy.bf16.bits < FTy.f32.bits) :
    matmul dot_S5000x128_S128x128_S5000x128_1_0_0_1_n_n none (truncf .bf16 x h₁) (truncf .bf16 w h₂)
        (constant (F := Ideal) S5000x128 .f32 0x00000000#32)
      = denseArr (R := 5000) x (mat w) :=
  matmul_rows _ rfl x w h₁ h₂

/-- The pre-residual kernel's stored value: the residual step of every row of the block. -/
theorem pay0 (v0 : Vec Ideal S5000x128 .f32) (v2 v10 : Vec Ideal S128x128 .f32) :
    k0_pay1 (F := Ideal) v0 v2 v10 = residArr (R := 5000) v0 (mat v2) (mat v10) := by
  unfold k0_pay1
  simp only [shapeCast_self, matmul_block, kernel_act, kernel_resid]
  rw [residArr_eq]
  rfl

/-- What the pre-residual kernel leaves in its output block. -/
theorem out0 (x0 : Vec Ideal S5000x128 .f32) (x1 x2 : Vec Ideal S128x128 .f32) :
    out0_3 (F := Ideal) x0 x1 x2 = residArr (R := 5000) x0 (mat x1) (mat x2) := by
  unfold out0_3
  rw [View.canon_unit_zero zero2]
  simp only [View.ld_unit_zero (S := S5000x128) zero2, View.ld_unit_zero (S := S128x128) zero2]
  exact pay0 _ _ _

/-- The edge kernel's stored value: each edge row's dense map times the gathered node row. -/
theorem pay1 (v0 : Vec Ideal S5000x128 .f32) (v2 : Vec Ideal S128x128 .f32) (v5 : Vec Ideal S5000x128 .f32) :
    k1_pay1 (F := Ideal) v0 v2 v5 = edgeArr (R := 5000) v0 (mat v2) v5 := by
  unfold k1_pay1
  simp only [shapeCast_self, matmul_block]
  rfl

/-- What the edge kernel leaves in its output block. -/
theorem out1 (x0 : Vec Ideal S5000x128 .f32) (x1 : Vec Ideal S128x128 .f32) (x2 : Vec Ideal S5000x128 .f32) :
    out1_3 (F := Ideal) x0 x1 x2 = edgeArr (R := 5000) x0 (mat x1) x2 := by
  unfold out1_3
  rw [View.canon_unit_zero zero2]
  simp only [View.ld_unit_zero (S := S5000x128) zero2, View.ld_unit_zero (S := S128x128) zero2]
  exact pay1 _ _ _

/-- A [1,1,128,128] piece of the weight stack at position (l, s), viewed as a matrix, is matrix (l, s) of the stack. -/
theorem piece_mat (x2 : Vec Ideal S3x2x128x128 .f32) (l : Fin 3) (s : Fin 2) (off : Fin 4 → ℕ)
    (hoff : off = ![l.val, s.val, 0, 0]) (inb : ∀ a, off a + S1x1x128x128.size a ≤ S3x2x128x128.size a)
    (h : S1x1x128x128.ShapeCasts S128x128) :
    mat (shapeCast S128x128 (View.ld x2 (Rect.unit (s := S3x2x128x128) off S1x1x128x128.size inb)) h) = mat4 x2 l s := by
  funext k j
  show shapeCast S128x128 (View.ld x2 (Rect.unit (s := S3x2x128x128) off S1x1x128x128.size inb)) h (ix2 k j) = x2 (ix4 l s k j)
  rw [Cert.Gram.shapeCast_11ab_ab_apply]
  show x2 ((Rect.unit (s := S3x2x128x128) off S1x1x128x128.size inb).emb (ix4 (0 : Fin 1) (0 : Fin 1) k j)) = x2 (ix4 l s k j)
  congr 1
  funext a
  apply Fin.ext
  subst hoff
  match a with
  | ⟨0, _⟩ => show l.val + 1 * 0 = l.val; omega
  | ⟨1, _⟩ => show s.val + 1 * 0 = s.val; omega
  | ⟨2, _⟩ => show 0 + 1 * k.val = k.val; omega
  | ⟨3, _⟩ => show 0 + 1 * j.val = j.val; omega

theorem piece00 (x2 : Vec Ideal S3x2x128x128 .f32) (h : S1x1x128x128.ShapeCasts S128x128) :
    mat (shapeCast S128x128 (View.ld x2 r2_2) h) = mat4 x2 0 0 := piece_mat x2 0 0 _ rfl _ h
theorem piece01 (x2 : Vec Ideal S3x2x128x128 .f32) (h : S1x1x128x128.ShapeCasts S128x128) :
    mat (shapeCast S128x128 (View.ld x2 r2_3) h) = mat4 x2 0 1 := piece_mat x2 0 1 _ rfl _ h
theorem piece10 (x2 : Vec Ideal S3x2x128x128 .f32) (h : S1x1x128x128.ShapeCasts S128x128) :
    mat (shapeCast S128x128 (View.ld x2 r2_4) h) = mat4 x2 1 0 := piece_mat x2 1 0 _ rfl _ h
theorem piece11 (x2 : Vec Ideal S3x2x128x128 .f32) (h : S1x1x128x128.ShapeCasts S128x128) :
    mat (shapeCast S128x128 (View.ld x2 r2_5) h) = mat4 x2 1 1 := piece_mat x2 1 1 _ rfl _ h
theorem piece20 (x2 : Vec Ideal S3x2x128x128 .f32) (h : S1x1x128x128.ShapeCasts S128x128) :
    mat (shapeCast S128x128 (View.ld x2 r2_6) h) = mat4 x2 2 0 := piece_mat x2 2 0 _ rfl _ h
theorem piece21 (x2 : Vec Ideal S3x2x128x128 .f32) (h : S1x1x128x128.ShapeCasts S128x128) :
    mat (shapeCast S128x128 (View.ld x2 r2_7) h) = mat4 x2 2 1 := piece_mat x2 2 1 _ rfl _ h

/-- What the last kernel leaves in its output block: one layer, then the three residual blocks of the stack. -/
theorem out2 (x0 : Vec Ideal S5000x128 .f32) (x1 : Vec Ideal S128x128 .f32) (x2 : Vec Ideal S3x2x128x128 .f32) :
    out2_3 (F := Ideal) x0 x1 x2 = postArr (R := 5000) x0 (mat x1) (mat4 x2) := by
  unfold out2_3
  rw [View.canon_unit_zero zero2]
  simp only [View.ld_unit_zero (S := S5000x128) zero2, View.ld_unit_zero (S := S128x128) zero2]
  unfold k2_pay3 k2_pay2 k2_pay1
  simp only [shapeCast_self, matmul_block, kernel_act, kernel_resid, piece00, piece01, piece10, piece11, piece20, piece21]
  unfold postArr
  rw [residArr_eq, residArr_eq, residArr_eq]
  rfl

end Cert.KernelIdeal.Body

end
-- ==== Proof.KEval.lean ====
/-
  The kernel program's host operations and its three regions, each region read as one operation, folded over an
  arbitrary valuation of the buffers: what the result buffer holds at the end, as a function of the nine arguments.

  Region 0 leaves the node array at the residual step of every row of the first argument; the host gathers its rows
  at the (wrapped) source indices; region 1 multiplies each edge row's dense map by the gathered row; the host
  scatter-adds the edge rows at the target indices into zeros and scales by the one-entry argument; region 2 applies
  one layer and the three residual blocks.
-/
import proofs.«134382_j13142599926314_1_alg».proof.Proof.Gen.KernelIdeal.Launch
import proofs.«134382_j13142599926314_1_alg».proof.Proof.Spec
import Idealize.ShloMosaic.Lib.StableHlo.Run

noncomputable section

namespace Cert.KernelIdeal.KEval

open Cert.KernelIdeal Cert.KernelIdeal.Gen Cert.Spec
open Idealize.ShloMosaic Idealize.ShloMosaic.TcCoe Idealize.SL.Sem Idealize.ShloMosaic.StableHlo

/-- Region 0 as one operation: the node array ends at the residual step of every row of the first argument. -/
def op0 : HloOp τ sig (Elt Ideal) :=
  ternary main_arg0 main_v1 main_v3 main_v4
    ((fun x w₀ w₁ => residArr (R := 50000) x (mat w₀) (mat w₁)) : (⟨S50000x128, .f32⟩ : BufTy).Contents (Elt Ideal) → (⟨S128x128, .f32⟩ : BufTy).Contents (Elt Ideal) → (⟨S128x128, .f32⟩ : BufTy).Contents (Elt Ideal) → (⟨S50000x128, .f32⟩ : BufTy).Contents (Elt Ideal))

/-- Region 1 as one operation: each edge row's dense map times the gathered node row. -/
def op1 : HloOp τ sig (Elt Ideal) :=
  ternary main_arg1 main_arg4 main_v11 main_v12
    ((fun b w h => edgeArr (R := 800000) b (mat w) h) : (⟨S800000x128, .f32⟩ : BufTy).Contents (Elt Ideal) → (⟨S128x128, .f32⟩ : BufTy).Contents (Elt Ideal) → (⟨S800000x128, .f32⟩ : BufTy).Contents (Elt Ideal) → (⟨S800000x128, .f32⟩ : BufTy).Contents (Elt Ideal))

/-- Region 2 as one operation: one layer and the three residual blocks of the weight stack, row by row. -/
def op2 : HloOp τ sig (Elt Ideal) :=
  ternary main_v18 main_arg6 main_arg7 main_v19
    ((fun x w ws => postArr (R := 50000) x (mat w) (mat4 ws)) : (⟨S50000x128, .f32⟩ : BufTy).Contents (Elt Ideal) → (⟨S128x128, .f32⟩ : BufTy).Contents (Elt Ideal) → (⟨S3x2x128x128, .f32⟩ : BufTy).Contents (Elt Ideal) → (⟨S50000x128, .f32⟩ : BufTy).Contents (Elt Ideal))

/-- @main's host operations with each region in its place as one operation. -/
def kops : List (HloOp τ sig (Elt Ideal)) := hostOps0 ++ [op0] ++ hostOps1 ++ [op1] ++ hostOps2 ++ [op2]

/-- The node stage: the residual step of every node row, its two weights the two matrices of the sixth argument. -/
def nodeK (a0 : S50000x128.Idx → EReal) (a5 : S2x128x128.Idx → EReal) : S50000x128.Idx → EReal :=
  residArr (R := 50000) a0
    (mat fun i => shapeCast main_v1.ty.shape (extractStridedSlice S1x128x128 ![0, 0, 0] a5 slices_S2x128x128_S1x128x128_0_0_0) shapeCasts_S1x128x128_S128x128 i)
    (mat fun i => shapeCast main_v3.ty.shape (extractStridedSlice S1x128x128 ![1, 0, 0] a5 slices_S2x128x128_S1x128x128_1_0_0) shapeCasts_S1x128x128_S128x128 i)

/-- From the node-stage array to the aggregated, scaled array: gather at the wrapped source indices, the edge stage,
    scatter-add at the target indices into zeros, the scale. -/
def aggK (H : S50000x128.Idx → EReal) (a1 : S800000x128.Idx → EReal) (a2 a3 : S800000.Idx → BitVec 32)
    (a4 : S128x128.Idx → EReal) (a8 : S1.Idx → EReal) : S50000x128.Idx → EReal :=
  mulf
    (Host.scatterAdd scatter_S50000x128_S800000x1_S800000x128_1_0_0_1
      (broadcastInDim S50000x128 ![] bcast_S_S50000x128 (constant (F := Ideal) S_ .f32 0x00000000#32))
      (broadcastInDim S800000x1 ![0] bcast_S800000_S800000x1_0 a3)
      (edgeArr (R := 800000) a1 (mat a4)
        (Host.gather gather_S50000x128_S800000x1_S800000x128_1_0_n_n_0_1_1128 H
          (broadcastInDim S800000x1 ![0] bcast_S800000_S800000x1_0
            (select (cmpi .slt a2 (broadcastInDim S800000 ![] bcast_S_S800000 (constantI S_ 32 0#32)))
              (addi a2 (broadcastInDim S800000 ![] bcast_S_S800000 (constantI S_ 32 50000#32))) a2)))))
    (broadcastInDim S50000x128 ![] bcast_S_S50000x128 fun i => shapeCast main_v16.ty.shape a8 shapeCasts_S1_S_ i)

/-- The result as a function of the arguments. -/
def kernOut (a0 : S50000x128.Idx → EReal) (a1 : S800000x128.Idx → EReal) (a2 a3 : S800000.Idx → BitVec 32)
    (a4 : S128x128.Idx → EReal) (a5 : S2x128x128.Idx → EReal) (a6 : S128x128.Idx → EReal)
    (a7 : S3x2x128x128.Idx → EReal) (a8 : S1.Idx → EReal) : S50000x128.Idx → EReal :=
  postArr (R := 50000) (aggK (nodeK a0 a5) a1 a2 a3 a4 a8) (mat a6) (mat4 a7)

/-- The fold at the result buffer, over any valuation. -/
theorem eval (W : Valuation τ sig (Elt Ideal)) :
    after kops W (Proc.devRef .tc main_v19)
      = kernOut (W (Proc.devRef .tc main_arg0)) (W (Proc.devRef .tc main_arg1)) (W (Proc.devRef .tc main_arg2))
          (W (Proc.devRef .tc main_arg3)) (W (Proc.devRef .tc main_arg4)) (W (Proc.devRef .tc main_arg5))
          (W (Proc.devRef .tc main_arg6)) (W (Proc.devRef .tc main_arg7)) (W (Proc.devRef .tc main_arg8)) := by
  unfold kops kernOut aggK nodeK
  simp only [hostOps0, hostOps1, hostOps2, op0, op1, op2, List.cons_append, List.nil_append, List.append_assoc]
  after_results_simp
  rfl

/-! Each region's operation: what it leaves in its output array, and that it leaves every other buffer alone. -/

theorem op0_out (W : Valuation τ sig (Elt Ideal)) :
    after [op0] W (Proc.devRef .tc main_v4)
      = residArr (R := 50000) (W (Proc.devRef .tc main_arg0)) (mat (W (Proc.devRef .tc main_v1))) (mat (W (Proc.devRef .tc main_v3))) :=
  by unfold op0; rw [after_cons, after_nil, ternary_result]

theorem op0_ne (W : Valuation τ sig (Elt Ideal)) {r : Ref sig .tc} (h : r ≠ main_v4) :
    after [op0] W (Proc.devRef .tc r) = W (Proc.devRef .tc r) :=
  by unfold op0; exact ternary_result_ne _ _ _ _ _ _ _ _ _ W h

theorem op0_rest (W : Valuation τ sig (Elt Ideal)) (b : DevRef τ sig) (h : Proc.devRef .tc main_v4 ≠ b) :
    after [op0] W b = W b :=
  HloOp.result_of_not_mem _ _ (by unfold op0; rw [ternary_writes, Finset.mem_singleton]; exact fun e => h e.symm)

theorem op1_out (W : Valuation τ sig (Elt Ideal)) :
    after [op1] W (Proc.devRef .tc main_v12)
      = edgeArr (R := 800000) (W (Proc.devRef .tc main_arg1)) (mat (W (Proc.devRef .tc main_arg4))) (W (Proc.devRef .tc main_v11)) :=
  by unfold op1; rw [after_cons, after_nil, ternary_result]

theorem op1_ne (W : Valuation τ sig (Elt Ideal)) {r : Ref sig .tc} (h : r ≠ main_v12) :
    after [op1] W (Proc.devRef .tc r) = W (Proc.devRef .tc r) :=
  by unfold op1; exact ternary_result_ne _ _ _ _ _ _ _ _ _ W h

theorem op1_rest (W : Valuation τ sig (Elt Ideal)) (b : DevRef τ sig) (h : Proc.devRef .tc main_v12 ≠ b) :
    after [op1] W b = W b :=
  HloOp.result_of_not_mem _ _ (by unfold op1; rw [ternary_writes, Finset.mem_singleton]; exact fun e => h e.symm)

theorem op2_out (W : Valuation τ sig (Elt Ideal)) :
    after [op2] W (Proc.devRef .tc main_v19)
      = postArr (R := 50000) (W (Proc.devRef .tc main_v18)) (mat (W (Proc.devRef .tc main_arg6))) (mat4 (W (Proc.devRef .tc main_arg7))) :=
  by unfold op2; rw [after_cons, after_nil, ternary_result]

theorem op2_ne (W : Valuation τ sig (Elt Ideal)) {r : Ref sig .tc} (h : r ≠ main_v19) :
    after [op2] W (Proc.devRef .tc r) = W (Proc.devRef .tc r) :=
  by unfold op2; exact ternary_result_ne _ _ _ _ _ _ _ _ _ W h

theorem op2_rest (W : Valuation τ sig (Elt Ideal)) (b : DevRef τ sig) (h : Proc.devRef .tc main_v19 ≠ b) :
    after [op2] W b = W b :=
  HloOp.result_of_not_mem _ _ (by unfold op2; rw [ternary_writes, Finset.mem_singleton]; exact fun e => h e.symm)

end Cert.KernelIdeal.KEval

end
-- ==== Proof.KRun.lean ====
/-
  The idealized kernel program's run with its result buffer named.

  @main is three kernel regions among stretches of host operations. Through the generated fold of the buffer contents
  from the launch memory — a stretch's operations applied in order; a region's arrays at what its write-backs leave,
  every other buffer as the region found it — every buffer the program does not scope ends at the fold's last
  valuation. Here the launch of the generated frame is stated with the result buffer's final contents kept in the
  post: it ends at that last valuation read at the result buffer, and the arguments end as launched.
-/
import proofs.«134382_j13142599926314_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last boundary's
    contents, and the argument arrays end as launched. -/
theorem run_out : θ_run defs (onTc (τ := τ) (main (F := F))) ⟨m, fun _ => 0, ρ⟩ (fun r => ∀ c : Dev nD,
      r.2.mem ((c.tc : Thread nD τ).loc main_v19) = W6 m ρ c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v19 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.KRun

end
-- ==== Proof.Blocks0.lean ====
/-
  The geometry of the kernel's first blocked region: its grid has 10 points; point t works on rows
  5000·t … 5000·t + 4999 of the row-blocked input and on the whole of each weight matrix, and writes rows
  5000·t … 5000·t + 4999 of the output. The 10 row blocks tile the 50000 rows (the block holding row r is
  number r / 5000), so if at every point the body leaves that point's rows of one array G, the output array
  ends at G.
-/
import proofs.«134382_j13142599926314_1_alg».proof.Proof.Gen.KernelIdeal.Frame
import proofs.«134382_j13142599926314_1_alg».proof.Proof.Spec
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.Spec Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

/-- The block index maps, decided over the grid's 10 points: a row-blocked window's block at point t is block
    (t, 0); a weight window's is the one block at the origin. -/
theorem idx0 : ∀ t : Fin cfg0.N,
      win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- the array row that row p of grid point t's block is: 5000·t + p -/
def rowOf0 (t : Fin cfg0.N) (p : Fin 5000) : Fin 50000 :=
  ⟨5000 * t.val + p.val, by have ht := t.isLt; have hN : cfg0.N = 10 := N_0; have hp := p.isLt; omega⟩

/-- The row-blocked input's block at point t is rows 5000·t … of the array. -/
theorem iblk0_0 (c : Dev nD) (t : Fin cfg0.N) :
    (iblk0 (F := Ideal) V c 0 t : S5000x128.Idx → EReal) = rowsAt (rowOf0 t) (V c main_arg0) := by
  obtain ⟨e0, e1, -⟩ := idx0 t
  funext y
  unfold iblk0
  rw [View.read_apply]
  show V c main_arg0 (((cfg0.win 0).blk t).view.emb y) = V c main_arg0 (ix2 (rowOf0 t (y 0)) (y 1))
  refine congrArg (V c main_arg0) ?_
  funext a
  apply Fin.ext
  match a with
  | ⟨0, _⟩ =>
    show win0_0.index t (0 : Fin 2) * 5000 + 1 * (y 0).val = 5000 * t.val + (y 0).val
    rw [e0]; omega
  | ⟨1, _⟩ =>
    show win0_0.index t (1 : Fin 2) * 128 + 1 * (y 1).val = (y 1).val
    rw [e1]; omega

/-- The first weight window's block at any point is the whole matrix. -/
theorem iblk0_1 (c : Dev nD) (t : Fin cfg0.N) :
    (iblk0 (F := Ideal) V c 1 t : S128x128.Idx → EReal) = V c main_v1 := by
  obtain ⟨-, -, e2, e3, -⟩ := idx0 t
  funext y
  unfold iblk0
  rw [View.read_apply]
  show V c main_v1 (((cfg0.win 1).blk t).view.emb y) = V c main_v1 y
  refine congrArg (V c main_v1) ?_
  funext a
  apply Fin.ext
  match a with
  | ⟨0, _⟩ =>
    show win0_1.index t (0 : Fin 2) * 128 + 1 * (y 0).val = (y 0).val
    rw [e2]; omega
  | ⟨1, _⟩ =>
    show win0_1.index t (1 : Fin 2) * 128 + 1 * (y 1).val = (y 1).val
    rw [e3]; omega

/-- The second weight window's block at any point is the whole matrix. -/
theorem iblk0_2 (c : Dev nD) (t : Fin cfg0.N) :
    (iblk0 (F := Ideal) V c 2 t : S128x128.Idx → EReal) = V c main_v3 := by
  obtain ⟨-, -, -, -, e4, e5, -⟩ := idx0 t
  funext y
  unfold iblk0
  rw [View.read_apply]
  show V c main_v3 (((cfg0.win 2).blk t).view.emb y) = V c main_v3 y
  refine congrArg (V c main_v3) ?_
  funext a
  apply Fin.ext
  match a with
  | ⟨0, _⟩ =>
    show win0_2.index t (0 : Fin 2) * 128 + 1 * (y 0).val = (y 0).val
    rw [e4]; omega
  | ⟨1, _⟩ =>
    show win0_2.index t (1 : Fin 2) * 128 + 1 * (y 1).val = (y 1).val
    rw [e5]; omega

/-- What point t writes back, when the body leaves that point's rows of G, is the output window's block t of G:
    row p of block t sits at row 5000·t + p of the array. -/
theorem flushed0 (c : Dev nD) (G : S50000x128.Idx → EReal)
    (hbody : ∀ t : Fin cfg0.N,
      out0_3 (F := Ideal) (iblk0 V c 0 t) (iblk0 V c 1 t) (iblk0 V c 2 t) = rowsAt (rowOf0 t) G)
    (t : Fin cfg0.N) :
    (dat0 (F := Ideal) V c).flushed 3 t = ((cfg0.win 3).blk t).view.read (Elt Ideal) G := by
  obtain ⟨-, -, -, -, -, -, e6, e7⟩ := idx0 t
  show (cfg0.win 3).cut (grid0.coords t) ((dat0 V c).after 3 t) = _
  rw [after0_3, hbody t]
  funext y
  rw [View.read_apply]
  show G (ix2 (rowOf0 t (y 0)) (y 1)) = G (((cfg0.win 3).blk t).view.emb y)
  refine congrArg G ?_
  funext a
  apply Fin.ext
  match a with
  | ⟨0, _⟩ =>
    show 5000 * t.val + (y 0).val = win0_3.index t (0 : Fin 2) * 5000 + 1 * (y 0).val
    rw [e6]; omega
  | ⟨1, _⟩ =>
    show (y 1).val = win0_3.index t (1 : Fin 2) * 128 + 1 * (y 1).val
    rw [e7]; omega

/-- An index of the output array is in point t's block iff each coordinate is in the block's range on its axis. -/
theorem mem_blk0 (t : Fin cfg0.N) (i : S50000x128.Idx) :
    i ∈ ((cfg0.win 3).blk t).view.set ↔
      ∀ a : Fin 2, win0_3.index t a * S5000x128.size a ≤ (i a).val
        ∧ (i a).val < win0_3.index t a * S5000x128.size a + S5000x128.size a := by
  show i ∈ ((View.whole main_v4).slice (win0_3.rect t)).set ↔ _
  rw [View.set_slice_whole, Rect.mem_set_unit]
  exact Iff.rfl

/-- Every index of the output array is in the block of the point numbered by its row divided by 5000. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  have hq : (i 0).val / 5000 < cfg0.N := by rw [hN]; omega
  obtain ⟨-, -, -, -, -, -, e6, e7⟩ := idx0 ⟨(i 0).val / 5000, hq⟩
  refine ⟨⟨(i 0).val / 5000, hq⟩, flush0_3 _, ?_⟩
  rw [mem_blk0]
  intro a
  match a with
  | ⟨0, _⟩ =>
    show win0_3.index ⟨(i 0).val / 5000, hq⟩ (0 : Fin 2) * 5000 ≤ (i 0).val
      ∧ (i 0).val < win0_3.index ⟨(i 0).val / 5000, hq⟩ (0 : Fin 2) * 5000 + 5000
    rw [e6]
    show (i 0).val / 5000 * 5000 ≤ (i 0).val ∧ (i 0).val < (i 0).val / 5000 * 5000 + 5000
    omega
  | ⟨1, _⟩ =>
    show win0_3.index ⟨(i 0).val / 5000, hq⟩ (1 : Fin 2) * 128 ≤ (i 1).val
      ∧ (i 1).val < win0_3.index ⟨(i 0).val / 5000, hq⟩ (1 : Fin 2) * 128 + 128
    rw [e7]; omega

/-- if at every grid point the body leaves, from the point's input blocks, the point's rows of one array G, the
    output array ends at G -/
theorem arr0 (c : Dev nD) (G : S50000x128.Idx → EReal)
    (hbody : ∀ t : Fin cfg0.N,
      out0_3 (F := Ideal) (iblk0 V c 0 t) (iblk0 V c 1 t) (iblk0 V c 2 t) = rowsAt (rowOf0 t) G) :
    (dat0 (F := Ideal) V c).arrAt 3 cfg0.N = G :=
  (dat0 (F := Ideal) V c).arrAt_eq_of_cover 3 G (fun t _ => flushed0 V c G hbody t) cover0

end Cert.KernelIdeal.Blocks

end
-- ==== Proof.Blocks1.lean ====
/-
  The geometry of the kernel's second blocked region: its grid has 160 points; point t works on rows
  5000·t … 5000·t + 4999 of the two row-blocked inputs and on the whole of the weight matrix, and writes rows
  5000·t … 5000·t + 4999 of the output. The 160 row blocks tile the 800000 rows (the block holding row r is
  number r / 5000), so if at every point the body leaves that point's rows of one array G, the output array
  ends at G.
-/
import proofs.«134382_j13142599926314_1_alg».proof.Proof.Gen.KernelIdeal.Frame
import proofs.«134382_j13142599926314_1_alg».proof.Proof.Spec
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.Spec Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

/-- The block index maps, decided over the grid's 160 points: a row-blocked window's block at point t is block
    (t, 0); the weight window's is the one block at the origin. -/
theorem idx1 : ∀ t : Fin cfg1.N,
      win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- the array row that row p of grid point t's block is: 5000·t + p -/
def rowOf1 (t : Fin cfg1.N) (p : Fin 5000) : Fin 800000 :=
  ⟨5000 * t.val + p.val, by have ht := t.isLt; have hN : cfg1.N = 160 := N_1; have hp := p.isLt; omega⟩

/-- The first row-blocked input's block at point t is rows 5000·t … of the array. -/
theorem iblk1_0 (c : Dev nD) (t : Fin cfg1.N) :
    (iblk1 (F := Ideal) V c 0 t : S5000x128.Idx → EReal) = rowsAt (rowOf1 t) (V c main_arg1) := by
  obtain ⟨e0, e1, -⟩ := idx1 t
  funext y
  unfold iblk1
  rw [View.read_apply]
  show V c main_arg1 (((cfg1.win 0).blk t).view.emb y) = V c main_arg1 (ix2 (rowOf1 t (y 0)) (y 1))
  refine congrArg (V c main_arg1) ?_
  funext a
  apply Fin.ext
  match a with
  | ⟨0, _⟩ =>
    show win1_0.index t (0 : Fin 2) * 5000 + 1 * (y 0).val = 5000 * t.val + (y 0).val
    rw [e0]; omega
  | ⟨1, _⟩ =>
    show win1_0.index t (1 : Fin 2) * 128 + 1 * (y 1).val = (y 1).val
    rw [e1]; omega

/-- The weight window's block at any point is the whole matrix. -/
theorem iblk1_1 (c : Dev nD) (t : Fin cfg1.N) :
    (iblk1 (F := Ideal) V c 1 t : S128x128.Idx → EReal) = V c main_arg4 := by
  obtain ⟨-, -, e2, e3, -⟩ := idx1 t
  funext y
  unfold iblk1
  rw [View.read_apply]
  show V c main_arg4 (((cfg1.win 1).blk t).view.emb y) = V c main_arg4 y
  refine congrArg (V c main_arg4) ?_
  funext a
  apply Fin.ext
  match a with
  | ⟨0, _⟩ =>
    show win1_1.index t (0 : Fin 2) * 128 + 1 * (y 0).val = (y 0).val
    rw [e2]; omega
  | ⟨1, _⟩ =>
    show win1_1.index t (1 : Fin 2) * 128 + 1 * (y 1).val = (y 1).val
    rw [e3]; omega

/-- The second row-blocked input's block at point t is rows 5000·t … of the array. -/
theorem iblk1_2 (c : Dev nD) (t : Fin cfg1.N) :
    (iblk1 (F := Ideal) V c 2 t : S5000x128.Idx → EReal) = rowsAt (rowOf1 t) (V c main_v11) := by
  obtain ⟨-, -, -, -, e4, e5, -⟩ := idx1 t
  funext y
  unfold iblk1
  rw [View.read_apply]
  show V c main_v11 (((cfg1.win 2).blk t).view.emb y) = V c main_v11 (ix2 (rowOf1 t (y 0)) (y 1))
  refine congrArg (V c main_v11) ?_
  funext a
  apply Fin.ext
  match a with
  | ⟨0, _⟩ =>
    show win1_2.index t (0 : Fin 2) * 5000 + 1 * (y 0).val = 5000 * t.val + (y 0).val
    rw [e4]; omega
  | ⟨1, _⟩ =>
    show win1_2.index t (1 : Fin 2) * 128 + 1 * (y 1).val = (y 1).val
    rw [e5]; omega

/-- What point t writes back, when the body leaves that point's rows of G, is the output window's block t of G:
    row p of block t sits at row 5000·t + p of the array. -/
theorem flushed1 (c : Dev nD) (G : S800000x128.Idx → EReal)
    (hbody : ∀ t : Fin cfg1.N,
      out1_3 (F := Ideal) (iblk1 V c 0 t) (iblk1 V c 1 t) (iblk1 V c 2 t) = rowsAt (rowOf1 t) G)
    (t : Fin cfg1.N) :
    (dat1 (F := Ideal) V c).flushed 3 t = ((cfg1.win 3).blk t).view.read (Elt Ideal) G := by
  obtain ⟨-, -, -, -, -, -, e6, e7⟩ := idx1 t
  show (cfg1.win 3).cut (grid1.coords t) ((dat1 V c).after 3 t) = _
  rw [after1_3, hbody t]
  funext y
  rw [View.read_apply]
  show G (ix2 (rowOf1 t (y 0)) (y 1)) = G (((cfg1.win 3).blk t).view.emb y)
  refine congrArg G ?_
  funext a
  apply Fin.ext
  match a with
  | ⟨0, _⟩ =>
    show 5000 * t.val + (y 0).val = win1_3.index t (0 : Fin 2) * 5000 + 1 * (y 0).val
    rw [e6]; omega
  | ⟨1, _⟩ =>
    show (y 1).val = win1_3.index t (1 : Fin 2) * 128 + 1 * (y 1).val
    rw [e7]; omega

/-- An index of the output array is in point t's block iff each coordinate is in the block's range on its axis. -/
theorem mem_blk1 (t : Fin cfg1.N) (i : S800000x128.Idx) :
    i ∈ ((cfg1.win 3).blk t).view.set ↔
      ∀ a : Fin 2, win1_3.index t a * S5000x128.size a ≤ (i a).val
        ∧ (i a).val < win1_3.index t a * S5000x128.size a + S5000x128.size a := by
  show i ∈ ((View.whole main_v12).slice (win1_3.rect t)).set ↔ _
  rw [View.set_slice_whole, Rect.mem_set_unit]
  exact Iff.rfl

/-- Every index of the output array is in the block of the point numbered by its row divided by 5000. -/
theorem cover1 (i : S800000x128.Idx) :
    ∃ t : Fin cfg1.N, (cfg1.win 3).flush t = true ∧ i ∈ ((cfg1.win 3).blk t).view.set := by
  have hi0 : (i 0).val < 800000 := (i 0).isLt
  have hi1 : (i 1).val < 128 := (i 1).isLt
  have hN : cfg1.N = 160 := N_1
  have hq : (i 0).val / 5000 < cfg1.N := by rw [hN]; omega
  obtain ⟨-, -, -, -, -, -, e6, e7⟩ := idx1 ⟨(i 0).val / 5000, hq⟩
  refine ⟨⟨(i 0).val / 5000, hq⟩, flush1_3 _, ?_⟩
  rw [mem_blk1]
  intro a
  match a with
  | ⟨0, _⟩ =>
    show win1_3.index ⟨(i 0).val / 5000, hq⟩ (0 : Fin 2) * 5000 ≤ (i 0).val
      ∧ (i 0).val < win1_3.index ⟨(i 0).val / 5000, hq⟩ (0 : Fin 2) * 5000 + 5000
    rw [e6]
    show (i 0).val / 5000 * 5000 ≤ (i 0).val ∧ (i 0).val < (i 0).val / 5000 * 5000 + 5000
    omega
  | ⟨1, _⟩ =>
    show win1_3.index ⟨(i 0).val / 5000, hq⟩ (1 : Fin 2) * 128 ≤ (i 1).val
      ∧ (i 1).val < win1_3.index ⟨(i 0).val / 5000, hq⟩ (1 : Fin 2) * 128 + 128
    rw [e7]; omega

/-- if at every grid point the body leaves, from the point's input blocks, the point's rows of one array G, the
    output array ends at G -/
theorem arr1 (c : Dev nD) (G : S800000x128.Idx → EReal)
    (hbody : ∀ t : Fin cfg1.N,
      out1_3 (F := Ideal) (iblk1 V c 0 t) (iblk1 V c 1 t) (iblk1 V c 2 t) = rowsAt (rowOf1 t) G) :
    (dat1 (F := Ideal) V c).arrAt 3 cfg1.N = G :=
  (dat1 (F := Ideal) V c).arrAt_eq_of_cover 3 G (fun t _ => flushed1 V c G hbody t) cover1

end Cert.KernelIdeal.Blocks

end
-- ==== Proof.Blocks2.lean ====
/-
  The geometry of the kernel's third blocked region: its grid has 10 points; point t works on rows
  5000·t … 5000·t + 4999 of the row-blocked input and on the whole of the weight matrix and of the weight stack,
  and writes rows 5000·t … 5000·t + 4999 of the output. The 10 row blocks tile the 50000 rows (the block holding
  row r is number r / 5000), so if at every point the body leaves that point's rows of one array G, the output
  array ends at G.
-/
import proofs.«134382_j13142599926314_1_alg».proof.Proof.Gen.KernelIdeal.Frame
import proofs.«134382_j13142599926314_1_alg».proof.Proof.Spec
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.Spec Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

/-- The block index maps, decided over the grid's 10 points: a row-blocked window's block at point t is block
    (t, 0); a weight window's is the one block at the origin. -/
theorem idx2 : ∀ t : Fin cfg2.N,
      win2_0.index t (0 : Fin 2) = t.val ∧ win2_0.index t (1 : Fin 2) = 0
    ∧ win2_1.index t (0 : Fin 2) = 0 ∧ win2_1.index t (1 : Fin 2) = 0
    ∧ win2_2.index t (0 : Fin 4) = 0 ∧ win2_2.index t (1 : Fin 4) = 0
    ∧ win2_2.index t (2 : Fin 4) = 0 ∧ win2_2.index t (3 : Fin 4) = 0
    ∧ win2_3.index t (0 : Fin 2) = t.val ∧ win2_3.index t (1 : Fin 2) = 0 :=
  (by decide +kernel : ∀ t : Fin grid2.N, _)

/-- the array row that row p of grid point t's block is: 5000·t + p -/
def rowOf2 (t : Fin cfg2.N) (p : Fin 5000) : Fin 50000 :=
  ⟨5000 * t.val + p.val, by have ht := t.isLt; have hN : cfg2.N = 10 := N_2; have hp := p.isLt; omega⟩

/-- The row-blocked input's block at point t is rows 5000·t … of the array. -/
theorem iblk2_0 (c : Dev nD) (t : Fin cfg2.N) :
    (iblk2 (F := Ideal) V c 0 t : S5000x128.Idx → EReal) = rowsAt (rowOf2 t) (V c main_v18) := by
  obtain ⟨e0, e1, -⟩ := idx2 t
  funext y
  unfold iblk2
  rw [View.read_apply]
  show V c main_v18 (((cfg2.win 0).blk t).view.emb y) = V c main_v18 (ix2 (rowOf2 t (y 0)) (y 1))
  refine congrArg (V c main_v18) ?_
  funext a
  apply Fin.ext
  match a with
  | ⟨0, _⟩ =>
    show win2_0.index t (0 : Fin 2) * 5000 + 1 * (y 0).val = 5000 * t.val + (y 0).val
    rw [e0]; omega
  | ⟨1, _⟩ =>
    show win2_0.index t (1 : Fin 2) * 128 + 1 * (y 1).val = (y 1).val
    rw [e1]; omega

/-- The weight matrix window's block at any point is the whole matrix. -/
theorem iblk2_1 (c : Dev nD) (t : Fin cfg2.N) :
    (iblk2 (F := Ideal) V c 1 t : S128x128.Idx → EReal) = V c main_arg6 := by
  obtain ⟨-, -, e2, e3, -⟩ := idx2 t
  funext y
  unfold iblk2
  rw [View.read_apply]
  show V c main_arg6 (((cfg2.win 1).blk t).view.emb y) = V c main_arg6 y
  refine congrArg (V c main_arg6) ?_
  funext a
  apply Fin.ext
  match a with
  | ⟨0, _⟩ =>
    show win2_1.index t (0 : Fin 2) * 128 + 1 * (y 0).val = (y 0).val
    rw [e2]; omega
  | ⟨1, _⟩ =>
    show win2_1.index t (1 : Fin 2) * 128 + 1 * (y 1).val = (y 1).val
    rw [e3]; omega

/-- The weight stack window's block at any point is the whole stack. -/
theorem iblk2_2 (c : Dev nD) (t : Fin cfg2.N) :
    (iblk2 (F := Ideal) V c 2 t : S3x2x128x128.Idx → EReal) = V c main_arg7 := by
  obtain ⟨-, -, -, -, f0, f1, f2, f3, -⟩ := idx2 t
  funext y
  unfold iblk2
  rw [View.read_apply]
  show V c main_arg7 (((cfg2.win 2).blk t).view.emb y) = V c main_arg7 y
  refine congrArg (V c main_arg7) ?_
  funext a
  apply Fin.ext
  match a with
  | ⟨0, _⟩ =>
    show win2_2.index t (0 : Fin 4) * 3 + 1 * (y 0).val = (y 0).val
    rw [f0]; omega
  | ⟨1, _⟩ =>
    show win2_2.index t (1 : Fin 4) * 2 + 1 * (y 1).val = (y 1).val
    rw [f1]; omega
  | ⟨2, _⟩ =>
    show win2_2.index t (2 : Fin 4) * 128 + 1 * (y 2).val = (y 2).val
    rw [f2]; omega
  | ⟨3, _⟩ =>
    show win2_2.index t (3 : Fin 4) * 128 + 1 * (y 3).val = (y 3).val
    rw [f3]; omega

/-- What point t writes back, when the body leaves that point's rows of G, is the output window's block t of G:
    row p of block t sits at row 5000·t + p of the array. -/
theorem flushed2 (c : Dev nD) (G : S50000x128.Idx → EReal)
    (hbody : ∀ t : Fin cfg2.N,
      out2_3 (F := Ideal) (iblk2 V c 0 t) (iblk2 V c 1 t) (iblk2 V c 2 t) = rowsAt (rowOf2 t) G)
    (t : Fin cfg2.N) :
    (dat2 (F := Ideal) V c).flushed 3 t = ((cfg2.win 3).blk t).view.read (Elt Ideal) G := by
  obtain ⟨-, -, -, -, -, -, -, -, e6, e7⟩ := idx2 t
  show (cfg2.win 3).cut (grid2.coords t) ((dat2 V c).after 3 t) = _
  rw [after2_3, hbody t]
  funext y
  rw [View.read_apply]
  show G (ix2 (rowOf2 t (y 0)) (y 1)) = G (((cfg2.win 3).blk t).view.emb y)
  refine congrArg G ?_
  funext a
  apply Fin.ext
  match a with
  | ⟨0, _⟩ =>
    show 5000 * t.val + (y 0).val = win2_3.index t (0 : Fin 2) * 5000 + 1 * (y 0).val
    rw [e6]; omega
  | ⟨1, _⟩ =>
    show (y 1).val = win2_3.index t (1 : Fin 2) * 128 + 1 * (y 1).val
    rw [e7]; omega

/-- An index of the output array is in point t's block iff each coordinate is in the block's range on its axis. -/
theorem mem_blk2 (t : Fin cfg2.N) (i : S50000x128.Idx) :
    i ∈ ((cfg2.win 3).blk t).view.set ↔
      ∀ a : Fin 2, win2_3.index t a * S5000x128.size a ≤ (i a).val
        ∧ (i a).val < win2_3.index t a * S5000x128.size a + S5000x128.size a := by
  show i ∈ ((View.whole main_v19).slice (win2_3.rect t)).set ↔ _
  rw [View.set_slice_whole, Rect.mem_set_unit]
  exact Iff.rfl

/-- Every index of the output array is in the block of the point numbered by its row divided by 5000. -/
theorem cover2 (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : cfg2.N = 10 := N_2
  have hq : (i 0).val / 5000 < cfg2.N := by rw [hN]; omega
  obtain ⟨-, -, -, -, -, -, -, -, e6, e7⟩ := idx2 ⟨(i 0).val / 5000, hq⟩
  refine ⟨⟨(i 0).val / 5000, hq⟩, flush2_3 _, ?_⟩
  rw [mem_blk2]
  intro a
  match a with
  | ⟨0, _⟩ =>
    show win2_3.index ⟨(i 0).val / 5000, hq⟩ (0 : Fin 2) * 5000 ≤ (i 0).val
      ∧ (i 0).val < win2_3.index ⟨(i 0).val / 5000, hq⟩ (0 : Fin 2) * 5000 + 5000
    rw [e6]
    show (i 0).val / 5000 * 5000 ≤ (i 0).val ∧ (i 0).val < (i 0).val / 5000 * 5000 + 5000
    omega
  | ⟨1, _⟩ =>
    show win2_3.index ⟨(i 0).val / 5000, hq⟩ (1 : Fin 2) * 128 ≤ (i 1).val
      ∧ (i 1).val < win2_3.index ⟨(i 0).val / 5000, hq⟩ (1 : Fin 2) * 128 + 128
    rw [e7]; omega

/-- if at every grid point the body leaves, from the point's input blocks, the point's rows of one array G, the
    output array ends at G -/
theorem arr2 (c : Dev nD) (G : S50000x128.Idx → EReal)
    (hbody : ∀ t : Fin cfg2.N,
      out2_3 (F := Ideal) (iblk2 V c 0 t) (iblk2 V c 1 t) (iblk2 V c 2 t) = rowsAt (rowOf2 t) G) :
    (dat2 (F := Ideal) V c).arrAt 3 cfg2.N = G :=
  (dat2 (F := Ideal) V c).arrAt_eq_of_cover 3 G (fun t _ => flushed2 V c G hbody t) cover2

end Cert.KernelIdeal.Blocks

end
-- ==== Proof.LibRegionAsOp.lean ====
/-
  A kernel region read as one host operation, and a fold over a concatenation.

  A pallas_call's region changes the buffer contents only at its arrays: each ends at what the pipeline's write-backs
  leave, every other buffer keeps what it held. A host operation changes the contents only at its result buffer. So when
  a valuation agrees with the region's exit contents at each array and with the entry contents everywhere else, it IS
  the region's exit valuation; in particular a region whose one output array ends at a function of its (unchanged) input
  arrays leaves exactly what the host operation computing that function would.
-/
import Idealize.ShloMosaic.Lib.Pipeline.FrameSuffix
import Idealize.ShloMosaic.Lib.StableHlo.Run

noncomputable section

namespace Cert.LibRegionAsOp

open Idealize.ShloMosaic Idealize.SL.Sem

variable {nD : Nat} {τ : Topo} {sig : RefSig} {Val : EltTy → Type}

/-- The contents after two lines of operations run one after the other are those after their concatenation. -/
theorem after_append (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

/-- The contents after a one-operation line. -/
theorem after_single (op : HloOp τ sig Val) (V : Valuation τ sig Val) : StableHlo.after [op] V = op.result V := rfl

/-- A region's exit valuation (its arrays at `A`, everything else as entered) is any valuation `V'` that holds `A` at
    the arrays and the entry contents `V` at every other buffer. -/
theorem withArrays_eq_of {gr W : Nat} (win : Fin W → Pipeline.WinSpec sig gr)
    (hinj : Function.Injective (Pipeline.arrRef win)) (c : Dev nD) (V V' : Valuation τ sig Val)
    (A : (w : Fin W) → Buf Val ((win w).arr.view.loc (c.tc : Thread nD τ)))
    (harr : ∀ w, V' (Proc.devRef .tc (Pipeline.arrRef win w)) = A w)
    (hrest : ∀ b : DevRef τ sig, (∀ w, Proc.devRef .tc (Pipeline.arrRef win w) ≠ b) → V' b = V b) :
    Pipeline.withArrays win c V A = V' := by
  funext b
  by_cases h : ∃ w, Proc.devRef .tc (Pipeline.arrRef win w) = b
  · obtain ⟨w, rfl⟩ := h
    rw [Pipeline.withArrays_arr win hinj, harr]
  · unfold Pipeline.withArrays
    rw [dif_neg h, hrest b fun w e => h ⟨w, e⟩]

end Cert.LibRegionAsOp

end
-- ==== Proof.KFold.lean ====
/-
  The kernel program's result buffer as a function of its arguments.

  Each region's output array ends at the specification's whole-array function of the region's input arrays: at every
  grid point the body maps the point's rows of the inputs to the same function of those rows, taking rows commutes
  with every stage, and the blocks cover the array. So each region changes the buffer contents exactly as ONE
  operation computing that function would, the fold of the buffer contents through @main is the fold of one operation
  list, and the result buffer ends at that list's value of the launch contents.
-/
import proofs.«134382_j13142599926314_1_alg».proof.Proof.Gen.KernelIdeal.Frame
import proofs.«134382_j13142599926314_1_alg».proof.Proof.KBody
import proofs.«134382_j13142599926314_1_alg».proof.Proof.KEval
import proofs.«134382_j13142599926314_1_alg».proof.Proof.KRun
import proofs.«134382_j13142599926314_1_alg».proof.Proof.Blocks0
import proofs.«134382_j13142599926314_1_alg».proof.Proof.Blocks1
import proofs.«134382_j13142599926314_1_alg».proof.Proof.Blocks2
import proofs.«134382_j13142599926314_1_alg».proof.Proof.LibRegionAsOp

noncomputable section

namespace Cert.KernelIdeal.KFold

open Cert.KernelIdeal Cert.KernelIdeal.Gen Cert.Spec Cert.KernelIdeal.KEval
open Idealize.ShloMosaic Idealize.ShloMosaic.TcCoe Idealize.SL.Sem Idealize.ShloMosaic.StableHlo
open Idealize.ShloMosaic.Pipeline (Dat)

section Arrays

variable (V : (c : Dev nD) → (b : Ref sig .tc) → Buf (Elt Ideal) ((c : Thread nD τ).loc b))

/-- Region 0's output array: the residual step of every node row. -/
theorem arr0 (c : Dev nD) :
    (dat0 (F := Ideal) V c).arrAt 3 cfg0.N = residArr (R := 50000) (V c main_arg0) (mat (V c main_v1)) (mat (V c main_v3)) :=
  Blocks.arr0 V c _ fun t => by
    rw [Body.out0, Blocks.iblk0_0 V c t, Blocks.iblk0_1 V c t, Blocks.iblk0_2 V c t]
    rfl

/-- Region 1's output array: each edge row's dense map times the gathered node row. -/
theorem arr1 (c : Dev nD) :
    (dat1 (F := Ideal) V c).arrAt 3 cfg1.N = edgeArr (R := 800000) (V c main_arg1) (mat (V c main_arg4)) (V c main_v11) :=
  Blocks.arr1 V c _ fun t => by
    rw [Body.out1, Blocks.iblk1_0 V c t, Blocks.iblk1_1 V c t, Blocks.iblk1_2 V c t]
    rfl

/-- Region 2's output array: one layer and the three residual blocks, row by row. -/
theorem arr2 (c : Dev nD) :
    (dat2 (F := Ideal) V c).arrAt 3 cfg2.N = postArr (R := 50000) (V c main_v18) (mat (V c main_arg6)) (mat4 (V c main_arg7)) :=
  Blocks.arr2 V c _ fun t => by
    rw [Body.out2, Blocks.iblk2_0 V c t, Blocks.iblk2_1 V c t, Blocks.iblk2_2 V c t]
    rfl

end Arrays

variable (m : (ℓ : Loc nD τ sig) → Buf (Elt Ideal) ℓ) (ρ : Dev nD → PrngReg)

/-- Region 0 changes the buffer contents as its one operation does. -/
theorem W2_eq (c : Dev nD) : W2 m ρ c = after [op0] (W1 m ρ c) := by
  unfold W2
  refine Cert.LibRegionAsOp.withArrays_eq_of spec0 launch0.win.arr_inj c _ _ _ (fun w => ?_) (fun b hb => ?_)
  · match w with
    | ⟨0, _⟩ => exact (op0_ne _ (show main_arg0 ≠ main_v4 by decide)).trans (((dat0 (V1 m ρ) c).arrAt_in 0 rfl _).trans (A_eq0 (V1 m ρ) c 0)).symm
    | ⟨1, _⟩ => exact (op0_ne _ (show main_v1 ≠ main_v4 by decide)).trans (((dat0 (V1 m ρ) c).arrAt_in 1 rfl _).trans (A_eq0 (V1 m ρ) c 1)).symm
    | ⟨2, _⟩ => exact (op0_ne _ (show main_v3 ≠ main_v4 by decide)).trans (((dat0 (V1 m ρ) c).arrAt_in 2 rfl _).trans (A_eq0 (V1 m ρ) c 2)).symm
    | ⟨3, _⟩ => exact (op0_out _).trans (arr0 (V1 m ρ) c).symm
  · exact op0_rest _ b (hb 3)

/-- Region 1 changes the buffer contents as its one operation does. -/
theorem W4_eq (c : Dev nD) : W4 m ρ c = after [op1] (W3 m ρ c) := by
  unfold W4
  refine Cert.LibRegionAsOp.withArrays_eq_of spec1 launch1.win.arr_inj c _ _ _ (fun w => ?_) (fun b hb => ?_)
  · match w with
    | ⟨0, _⟩ => exact (op1_ne _ (show main_arg1 ≠ main_v12 by decide)).trans (((dat1 (V3 m ρ) c).arrAt_in 0 rfl _).trans (A_eq1 (V3 m ρ) c 0)).symm
    | ⟨1, _⟩ => exact (op1_ne _ (show main_arg4 ≠ main_v12 by decide)).trans (((dat1 (V3 m ρ) c).arrAt_in 1 rfl _).trans (A_eq1 (V3 m ρ) c 1)).symm
    | ⟨2, _⟩ => exact (op1_ne _ (show main_v11 ≠ main_v12 by decide)).trans (((dat1 (V3 m ρ) c).arrAt_in 2 rfl _).trans (A_eq1 (V3 m ρ) c 2)).symm
    | ⟨3, _⟩ => exact (op1_out _).trans (arr1 (V3 m ρ) c).symm
  · exact op1_rest _ b (hb 3)

/-- Region 2 changes the buffer contents as its one operation does. -/
theorem W6_eq (c : Dev nD) : W6 m ρ c = after [op2] (W5 m ρ c) := by
  unfold W6
  refine Cert.LibRegionAsOp.withArrays_eq_of spec2 launch2.win.arr_inj c _ _ _ (fun w => ?_) (fun b hb => ?_)
  · match w with
    | ⟨0, _⟩ => exact (op2_ne _ (show main_v18 ≠ main_v19 by decide)).trans (((dat2 (V5 m ρ) c).arrAt_in 0 rfl _).trans (A_eq2 (V5 m ρ) c 0)).symm
    | ⟨1, _⟩ => exact (op2_ne _ (show main_arg6 ≠ main_v19 by decide)).trans (((dat2 (V5 m ρ) c).arrAt_in 1 rfl _).trans (A_eq2 (V5 m ρ) c 1)).symm
    | ⟨2, _⟩ => exact (op2_ne _ (show main_arg7 ≠ main_v19 by decide)).trans (((dat2 (V5 m ρ) c).arrAt_in 2 rfl _).trans (A_eq2 (V5 m ρ) c 2)).symm
    | ⟨3, _⟩ => exact (op2_out _).trans (arr2 (V5 m ρ) c).symm
  · exact op2_rest _ b (hb 3)

/-- The last boundary's contents are the fold of the one operation list over the launch contents. -/
theorem W6_after (c : Dev nD) : W6 m ρ c = after kops (W0 m ρ c) := by
  rw [W6_eq, show W5 m ρ c = after hostOps2 (W4 m ρ c) from rfl, W4_eq,
    show W3 m ρ c = after hostOps1 (W2 m ρ c) from rfl, W2_eq,
    show W1 m ρ c = after hostOps0 (W0 m ρ c) from rfl]
  unfold kops
  simp only [Cert.LibRegionAsOp.after_append]

/-- The result buffer's final contents as a function of the launch contents of the arguments. -/
theorem out_eq (c : Dev nD) :
    W6 m ρ c (Proc.devRef .tc main_v19)
      = kernOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  rw [W6_after]
  exact KEval.eval (W0 m ρ c)

/-- The idealized kernel program's run, read: the result buffer ends at the specification's function of the
    arguments, and the arguments end as launched. -/
theorem run : θ_run (defs (F := Ideal)) (onTc (τ := τ) (main (F := Ideal))) ⟨m, fun _ => 0, ρ⟩ fun r => ∀ c : Dev nD,
      r.2.mem ((c.tc : Thread nD τ).loc main_v19)
        = kernOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (out_eq m ρ c), (h c).2⟩) (KRun.run_out (F := Ideal) m ρ)

end Cert.KernelIdeal.KFold

end
-- ==== Proof.RefStages.lean ====
/-
  The reference program's 167 host operations read in stages, over an arbitrary valuation of the buffers.

  The operation list is the concatenation of six consecutive stages. The node stage (a residual step on the node
  features with the two matrices of the first weight stack) ends at the array every edge gathers from; the
  aggregation stage multiplies each edge's product with its gathered node row, adds the edges up per target node
  and scales; one layer follows, then three residual steps, each with two matrices of the second weight stack.
  A stage writes only its own intermediate buffers: the arguments keep their contents throughout, so each stage's
  result is a function of the arguments and of the previous stage's result alone. The host's spelling of a layer
  (a product, then y · (1 / (1 + e^(−y))) · c) and of a residual step (add back, scale) are the row functions
  of the specification; a matrix cut out of the second weight stack by a unit slice and a reshape is that matrix
  of the stack.
-/
import proofs.«134382_j13142599926314_1_alg».proof.Proof.RefRun
import proofs.«134382_j13142599926314_1_alg».proof.Proof.RowOps
import proofs.«134382_j13142599926314_1_alg».proof.Proof.LibRegionAsOp

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.Spec Cert.RowOps Cert.LibRegionAsOp

/-! ## The six stages of the operation list -/

section Stages
variable {F : FTy → Type} [FloatOps F]

/-- The node stage: the two matrices cut out of the first weight stack, two layers, add back, scale. -/
abbrev s0 : List (HloOp τ sig (Elt F)) :=
  [ unary main_arg5 main_v0 ((extractStridedSlice S1x128x128 ![0, 0, 0] · slices_S2x128x128_S1x128x128_0_0_0) : (⟨S2x128x128, .f32⟩ : BufTy).Contents (Elt F) → (⟨S1x128x128, .f32⟩ : BufTy).Contents (Elt F)),
    reshape main_v0 main_v1 rfl shapeCasts_S1x128x128_S128x128,
    unary main_arg5 main_v2 ((extractStridedSlice S1x128x128 ![1, 0, 0] · slices_S2x128x128_S1x128x128_1_0_0) : (⟨S2x128x128, .f32⟩ : BufTy).Contents (Elt F) → (⟨S1x128x128, .f32⟩ : BufTy).Contents (Elt F)),
    reshape main_v2 main_v3 rfl shapeCasts_S1x128x128_S128x128,
    binary main_arg0 main_v1 main_v4 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    TRef.unary (TRef.of (T := ⟨S50000x128, .f32⟩) main_v4) (TRef.of (T := ⟨S50000x128, .f32⟩) main_call0_v0) Host.negf,
    TRef.unary (TRef.of (T := ⟨S50000x128, .f32⟩) main_call0_v0) (TRef.of (T := ⟨S50000x128, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S50000x128, .f32⟩) main_call0_v2) (broadcastInDim S50000x128 ![] bcast_S_S50000x128),
    TRef.binary (TRef.of (T := ⟨S50000x128, .f32⟩) main_call0_v2) (TRef.of (T := ⟨S50000x128, .f32⟩) main_call0_v1) (TRef.of (T := ⟨S50000x128, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S50000x128, .f32⟩) main_call0_v4) (broadcastInDim S50000x128 ![] bcast_S_S50000x128),
    TRef.binary (TRef.of (T := ⟨S50000x128, .f32⟩) main_call0_v4) (TRef.of (T := ⟨S50000x128, .f32⟩) main_call0_v3) (TRef.of (T := ⟨S50000x128, .f32⟩) main_call0_v5) Host.divf,
    TRef.binary (TRef.of (T := ⟨S50000x128, .f32⟩) main_v4) (TRef.of (T := ⟨S50000x128, .f32⟩) main_call0_v5) (TRef.of (T := ⟨S50000x128, .f32⟩) main_v5) mulf,
    nullary main_cst (constant S_ .f32 0x3FD55555#32),
    unary main_cst main_v6 (broadcastInDim S50000x128 ![] bcast_S_S50000x128 : (⟨S_, .f32⟩ : BufTy).Contents (Elt F) → (⟨S50000x128, .f32⟩ : BufTy).Contents (Elt F)),
    binary main_v5 main_v6 main_v7 (mulf : (⟨S50000x128, .f32⟩ : BufTy).Contents (Elt F) → (⟨S50000x128, .f32⟩ : BufTy).Contents (Elt F) → (⟨S50000x128, .f32⟩ : BufTy).Contents (Elt F)),
    binary main_v7 main_v3 main_v8 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    TRef.unary (TRef.of (T := ⟨S50000x128, .f32⟩) main_v8) (TRef.of (T := ⟨S50000x128, .f32⟩) main_call1_v0) Host.negf,
    TRef.unary (TRef.of (T := ⟨S50000x128, .f32⟩) main_call1_v0) (TRef.of (T := ⟨S50000x128, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S50000x128, .f32⟩) main_call1_v2) (broadcastInDim S50000x128 ![] bcast_S_S50000x128),
    TRef.binary (TRef.of (T := ⟨S50000x128, .f32⟩) main_call1_v2) (TRef.of (T := ⟨S50000x128, .f32⟩) main_call1_v1) (TRef.of (T := ⟨S50000x128, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S50000x128, .f32⟩) main_call1_v4) (broadcastInDim S50000x128 ![] bcast_S_S50000x128),
    TRef.binary (TRef.of (T := ⟨S50000x128, .f32⟩) main_call1_v4) (TRef.of (T := ⟨S50000x128, .f32⟩) main_call1_v3) (TRef.of (T := ⟨S50000x128, .f32⟩) main_call1_v5) Host.divf,
    TRef.binary (TRef.of (T := ⟨S50000x128, .f32⟩) main_v8) (TRef.of (T := ⟨S50000x128, .f32⟩) main_call1_v5) (TRef.of (T := ⟨S50000x128, .f32⟩) main_v9) mulf,
    nullary main_cst_0 (constant S_ .f32 0x3FD55555#32),
    unary main_cst_0 main_v10 (broadcastInDim S50000x128 ![] bcast_S_S50000x128 : (⟨S_, .f32⟩ : BufTy).Contents (Elt F) → (⟨S50000x128, .f32⟩ : BufTy).Contents (Elt F)),
    binary main_v9 main_v10 main_v11 (mulf : (⟨S50000x128, .f32⟩ : BufTy).Contents (Elt F) → (⟨S50000x128, .f32⟩ : BufTy).Contents (Elt F) → (⟨S50000x128, .f32⟩ : BufTy).Contents (Elt F)),
    binary main_arg0 main_v11 main_v12 (addf : (⟨S50000x128, .f32⟩ : BufTy).Contents (Elt F) → (⟨S50000x128, .f32⟩ : BufTy).Contents (Elt F) → (⟨S50000x128, .f32⟩ : BufTy).Contents (Elt F)),
    nullary main_cst_1 (constant S_ .f32 0x3F3504F3#32),
    unary main_cst_1 main_v13 (broadcastInDim S50000x128 ![] bcast_S_S50000x128 : (⟨S_, .f32⟩ : BufTy).Contents (Elt F) → (⟨S50000x128, .f32⟩ : BufTy).Contents (Elt F)),
    binary main_v12 main_v13 main_v14 (mulf : (⟨S50000x128, .f32⟩ : BufTy).Contents (Elt F) → (⟨S50000x128, .f32⟩ : BufTy).Contents (Elt F) → (⟨S50000x128, .f32⟩ : BufTy).Contents (Elt F)) ]

/-- The aggregation stage: the edges' product, the index normalisation, gather, multiply, scatter-add, scale. -/
abbrev s1 : List (HloOp τ sig (Elt F)) :=
  [ binary main_arg1 main_arg4 main_v15 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    nullary main_c (constantI S_ 32 0#32),
    unary main_c main_v16 (broadcastInDim S800000 ![] bcast_S_S800000 : (⟨S_, .i32⟩ : BufTy).Contents (Elt F) → (⟨S800000, .i32⟩ : BufTy).Contents (Elt F)),
    binary main_arg2 main_v16 main_v17 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v18 (broadcastInDim S800000 ![] bcast_S_S800000 : (⟨S_, .i32⟩ : BufTy).Contents (Elt F) → (⟨S800000, .i32⟩ : BufTy).Contents (Elt F)),
    binary main_arg2 main_v18 main_v19 (addi : (⟨S800000, .i32⟩ : BufTy).Contents (Elt F) → (⟨S800000, .i32⟩ : BufTy).Contents (Elt F) → (⟨S800000, .i32⟩ : BufTy).Contents (Elt F)),
    ternary main_v17 main_v19 main_arg2 main_v20 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v20 main_v21 (broadcastInDim S800000x1 ![0] bcast_S800000_S800000x1_0 : (⟨S800000, .i32⟩ : BufTy).Contents (Elt F) → (⟨S800000x1, .i32⟩ : BufTy).Contents (Elt F)),
    binary main_v14 main_v21 main_v22 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    binary main_v22 main_v15 main_v23 (mulf : (⟨S800000x128, .f32⟩ : BufTy).Contents (Elt F) → (⟨S800000x128, .f32⟩ : BufTy).Contents (Elt F) → (⟨S800000x128, .f32⟩ : BufTy).Contents (Elt F)),
    nullary main_cst_3 (constant S_ .f32 0x00000000#32),
    unary main_cst_3 main_v24 (broadcastInDim S50000x128 ![] bcast_S_S50000x128 : (⟨S_, .f32⟩ : BufTy).Contents (Elt F) → (⟨S50000x128, .f32⟩ : BufTy).Contents (Elt F)),
    unary main_arg3 main_v25 (broadcastInDim S800000x1 ![0] bcast_S800000_S800000x1_0 : (⟨S800000, .i32⟩ : BufTy).Contents (Elt F) → (⟨S800000x1, .i32⟩ : BufTy).Contents (Elt F)),
    ternary main_v24 main_v25 main_v23 main_v26 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    reshape main_arg8 main_v27 rfl shapeCasts_S1_S_,
    unary main_v27 main_v28 (broadcastInDim S50000x128 ![] bcast_S_S50000x128 : (⟨S_, .f32⟩ : BufTy).Contents (Elt F) → (⟨S50000x128, .f32⟩ : BufTy).Contents (Elt F)),
    binary main_v26 main_v28 main_v29 (mulf : (⟨S50000x128, .f32⟩ : BufTy).Contents (Elt F) → (⟨S50000x128, .f32⟩ : BufTy).Contents (Elt F) → (⟨S50000x128, .f32⟩ : BufTy).Contents (Elt F)) ]

/-- One layer. -/
abbrev s2 : List (HloOp τ sig (Elt F)) :=
  [ binary main_v29 main_arg6 main_v30 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    TRef.unary (TRef.of (T := ⟨S50000x128, .f32⟩) main_v30) (TRef.of (T := ⟨S50000x128, .f32⟩) main_call2_v0) Host.negf,
    TRef.unary (TRef.of (T := ⟨S50000x128, .f32⟩) main_call2_v0) (TRef.of (T := ⟨S50000x128, .f32⟩) main_call2_v1) Host.exp,
    TRef.nullary (TRef.of (T := ⟨S_, .f32⟩) main_call2_cst) (constant S_ .f32 0x3F800000#32),
    TRef.unary (TRef.of (T := ⟨S_, .f32⟩) main_call2_cst) (TRef.of (T := ⟨S50000x128, .f32⟩) main_call2_v2) (broadcastInDim S50000x128 ![] bcast_S_S50000x128),
    TRef.binary (TRef.of (T := ⟨S50000x128, .f32⟩) main_call2_v2) (TRef.of (T := ⟨S50000x128, .f32⟩) main_call2_v1) (TRef.of (T := ⟨S50000x128, .f32⟩) main_call2_v3) addf,
    TRef.nullary (TRef.of (T := ⟨S_, .f32⟩) main_call2_cst_0) (constant S_ .f32 0x3F800000#32),
    TRef.unary (TRef.of (T := ⟨S_, .f32⟩) main_call2_cst_0) (TRef.of (T := ⟨S50000x128, .f32⟩) main_call2_v4) (broadcastInDim S50000x128 ![] bcast_S_S50000x128),
    TRef.binary (TRef.of (T := ⟨S50000x128, .f32⟩) main_call2_v4) (TRef.of (T := ⟨S50000x128, .f32⟩) main_call2_v3) (TRef.of (T := ⟨S50000x128, .f32⟩) main_call2_v5) Host.divf,
    TRef.binary (TRef.of (T := ⟨S50000x128, .f32⟩) main_v30) (TRef.of (T := ⟨S50000x128, .f32⟩) main_call2_v5) (TRef.of (T := ⟨S50000x128, .f32⟩) main_v31) mulf,
    nullary main_cst_4 (constant S_ .f32 0x3FD55555#32),
    unary main_cst_4 main_v32 (broadcastInDim S50000x128 ![] bcast_S_S50000x128 : (⟨S_, .f32⟩ : BufTy).Contents (Elt F) → (⟨S50000x128, .f32⟩ : BufTy).Contents (Elt F)),
    binary main_v31 main_v32 main_v33 (mulf : (⟨S50000x128, .f32⟩ : BufTy).Contents (Elt F) → (⟨S50000x128, .f32⟩ : BufTy).Contents (Elt F) → (⟨S50000x128, .f32⟩ : BufTy).Contents (Elt F)) ]

/-- The first residual step, with matrices (0, 0) and (0, 1) of the second weight stack. -/
abbrev s3 : List (HloOp τ sig (Elt F)) :=
  [ unary main_arg7 main_v34 ((extractStridedSlice S1x1x128x128 ![0, 0, 0, 0] · slices_S3x2x128x128_S1x1x128x128_0_0_0_0) : (⟨S3x2x128x128, .f32⟩ : BufTy).Contents (Elt F) → (⟨S1x1x128x128, .f32⟩ : BufTy).Contents (Elt F)),
    reshape main_v34 main_v35 rfl shapeCasts_S1x1x128x128_S128x128,
    unary main_arg7 main_v36 ((extractStridedSlice S1x1x128x128 ![0, 1, 0, 0] · slices_S3x2x128x128_S1x1x128x128_0_1_0_0) : (⟨S3x2x128x128, .f32⟩ : BufTy).Contents (Elt F) → (⟨S1x1x128x128, .f32⟩ : BufTy).Contents (Elt F)),
    reshape main_v36 main_v37 rfl shapeCasts_S1x1x128x128_S128x128,
    binary main_v33 main_v35 main_v38 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    TRef.unary (TRef.of (T := ⟨S50000x128, .f32⟩) main_v38) (TRef.of (T := ⟨S50000x128, .f32⟩) main_call3_v0) Host.negf,
    TRef.unary (TRef.of (T := ⟨S50000x128, .f32⟩) main_call3_v0) (TRef.of (T := ⟨S50000x128, .f32⟩) main_call3_v1) Host.exp,
    TRef.nullary (TRef.of (T := ⟨S_, .f32⟩) main_call3_cst) (constant S_ .f32 0x3F800000#32),
    TRef.unary (TRef.of (T := ⟨S_, .f32⟩) main_call3_cst) (TRef.of (T := ⟨S50000x128, .f32⟩) main_call3_v2) (broadcastInDim S50000x128 ![] bcast_S_S50000x128),
    TRef.binary (TRef.of (T := ⟨S50000x128, .f32⟩) main_call3_v2) (TRef.of (T := ⟨S50000x128, .f32⟩) main_call3_v1) (TRef.of (T := ⟨S50000x128, .f32⟩) main_call3_v3) addf,
    TRef.nullary (TRef.of (T := ⟨S_, .f32⟩) main_call3_cst_0) (constant S_ .f32 0x3F800000#32),
    TRef.unary (TRef.of (T := ⟨S_, .f32⟩) main_call3_cst_0) (TRef.of (T := ⟨S50000x128, .f32⟩) main_call3_v4) (broadcastInDim S50000x128 ![] bcast_S_S50000x128),
    TRef.binary (TRef.of (T := ⟨S50000x128, .f32⟩) main_call3_v4) (TRef.of (T := ⟨S50000x128, .f32⟩) main_call3_v3) (TRef.of (T := ⟨S50000x128, .f32⟩) main_call3_v5) Host.divf,
    TRef.binary (TRef.of (T := ⟨S50000x128, .f32⟩) main_v38) (TRef.of (T := ⟨S50000x128, .f32⟩) main_call3_v5) (TRef.of (T := ⟨S50000x128, .f32⟩) main_v39) mulf,
    nullary main_cst_5 (constant S_ .f32 0x3FD55555#32),
    unary main_cst_5 main_v40 (broadcastInDim S50000x128 ![] bcast_S_S50000x128 : (⟨S_, .f32⟩ : BufTy).Contents (Elt F) → (⟨S50000x128, .f32⟩ : BufTy).Contents (Elt F)),
    binary main_v39 main_v40 main_v41 (mulf : (⟨S50000x128, .f32⟩ : BufTy).Contents (Elt F) → (⟨S50000x128, .f32⟩ : BufTy).Contents (Elt F) → (⟨S50000x128, .f32⟩ : BufTy).Contents (Elt F)),
    binary main_v41 main_v37 main_v42 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    TRef.unary (TRef.of (T := ⟨S50000x128, .f32⟩) main_v42) (TRef.of (T := ⟨S50000x128, .f32⟩) main_call4_v0) Host.negf,
    TRef.unary (TRef.of (T := ⟨S50000x128, .f32⟩) main_call4_v0) (TRef.of (T := ⟨S50000x128, .f32⟩) main_call4_v1) Host.exp,
    TRef.nullary (TRef.of (T := ⟨S_, .f32⟩) main_call4_cst) (constant S_ .f32 0x3F800000#32),
    TRef.unary (TRef.of (T := ⟨S_, .f32⟩) main_call4_cst) (TRef.of (T := ⟨S50000x128, .f32⟩) main_call4_v2) (broadcastInDim S50000x128 ![] bcast_S_S50000x128),
    TRef.binary (TRef.of (T := ⟨S50000x128, .f32⟩) main_call4_v2) (TRef.of (T := ⟨S50000x128, .f32⟩) main_call4_v1) (TRef.of (T := ⟨S50000x128, .f32⟩) main_call4_v3) addf,
    TRef.nullary (TRef.of (T := ⟨S_, .f32⟩) main_call4_cst_0) (constant S_ .f32 0x3F800000#32),
    TRef.unary (TRef.of (T := ⟨S_, .f32⟩) main_call4_cst_0) (TRef.of (T := ⟨S50000x128, .f32⟩) main_call4_v4) (broadcastInDim S50000x128 ![] bcast_S_S50000x128),
    TRef.binary (TRef.of (T := ⟨S50000x128, .f32⟩) main_call4_v4) (TRef.of (T := ⟨S50000x128, .f32⟩) main_call4_v3) (TRef.of (T := ⟨S50000x128, .f32⟩) main_call4_v5) Host.divf,
    TRef.binary (TRef.of (T := ⟨S50000x128, .f32⟩) main_v42) (TRef.of (T := ⟨S50000x128, .f32⟩) main_call4_v5) (TRef.of (T := ⟨S50000x128, .f32⟩) main_v43) mulf,
    nullary main_cst_6 (constant S_ .f32 0x3FD55555#32),
    unary main_cst_6 main_v44 (broadcastInDim S50000x128 ![] bcast_S_S50000x128 : (⟨S_, .f32⟩ : BufTy).Contents (Elt F) → (⟨S50000x128, .f32⟩ : BufTy).Contents (Elt F)),
    binary main_v43 main_v44 main_v45 (mulf : (⟨S50000x128, .f32⟩ : BufTy).Contents (Elt F) → (⟨S50000x128, .f32⟩ : BufTy).Contents (Elt F) → (⟨S50000x128, .f32⟩ : BufTy).Contents (Elt F)),
    binary main_v33 main_v45 main_v46 (addf : (⟨S50000x128, .f32⟩ : BufTy).Contents (Elt F) → (⟨S50000x128, .f32⟩ : BufTy).Contents (Elt F) → (⟨S50000x128, .f32⟩ : BufTy).Contents (Elt F)),
    nullary main_cst_7 (constant S_ .f32 0x3F3504F3#32),
    unary main_cst_7 main_v47 (broadcastInDim S50000x128 ![] bcast_S_S50000x128 : (⟨S_, .f32⟩ : BufTy).Contents (Elt F) → (⟨S50000x128, .f32⟩ : BufTy).Contents (Elt F)),
    binary main_v46 main_v47 main_v48 (mulf : (⟨S50000x128, .f32⟩ : BufTy).Contents (Elt F) → (⟨S50000x128, .f32⟩ : BufTy).Contents (Elt F) → (⟨S50000x128, .f32⟩ : BufTy).Contents (Elt F)) ]

/-- The second residual step, with matrices (1, 0) and (1, 1) of the second weight stack. -/
abbrev s4 : List (HloOp τ sig (Elt F)) :=
  [ unary main_arg7 main_v49 ((extractStridedSlice S1x1x128x128 ![1, 0, 0, 0] · slices_S3x2x128x128_S1x1x128x128_1_0_0_0) : (⟨S3x2x128x128, .f32⟩ : BufTy).Contents (Elt F) → (⟨S1x1x128x128, .f32⟩ : BufTy).Contents (Elt F)),
    reshape main_v49 main_v50 rfl shapeCasts_S1x1x128x128_S128x128,
    unary main_arg7 main_v51 ((extractStridedSlice S1x1x128x128 ![1, 1, 0, 0] · slices_S3x2x128x128_S1x1x128x128_1_1_0_0) : (⟨S3x2x128x128, .f32⟩ : BufTy).Contents (Elt F) → (⟨S1x1x128x128, .f32⟩ : BufTy).Contents (Elt F)),
    reshape main_v51 main_v52 rfl shapeCasts_S1x1x128x128_S128x128,
    binary main_v48 main_v50 main_v53 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    TRef.unary (TRef.of (T := ⟨S50000x128, .f32⟩) main_v53) (TRef.of (T := ⟨S50000x128, .f32⟩) main_call5_v0) Host.negf,
    TRef.unary (TRef.of (T := ⟨S50000x128, .f32⟩) main_call5_v0) (TRef.of (T := ⟨S50000x128, .f32⟩) main_call5_v1) Host.exp,
    TRef.nullary (TRef.of (T := ⟨S_, .f32⟩) main_call5_cst) (constant S_ .f32 0x3F800000#32),
    TRef.unary (TRef.of (T := ⟨S_, .f32⟩) main_call5_cst) (TRef.of (T := ⟨S50000x128, .f32⟩) main_call5_v2) (broadcastInDim S50000x128 ![] bcast_S_S50000x128),
    TRef.binary (TRef.of (T := ⟨S50000x128, .f32⟩) main_call5_v2) (TRef.of (T := ⟨S50000x128, .f32⟩) main_call5_v1) (TRef.of (T := ⟨S50000x128, .f32⟩) main_call5_v3) addf,
    TRef.nullary (TRef.of (T := ⟨S_, .f32⟩) main_call5_cst_0) (constant S_ .f32 0x3F800000#32),
    TRef.unary (TRef.of (T := ⟨S_, .f32⟩) main_call5_cst_0) (TRef.of (T := ⟨S50000x128, .f32⟩) main_call5_v4) (broadcastInDim S50000x128 ![] bcast_S_S50000x128),
    TRef.binary (TRef.of (T := ⟨S50000x128, .f32⟩) main_call5_v4) (TRef.of (T := ⟨S50000x128, .f32⟩) main_call5_v3) (TRef.of (T := ⟨S50000x128, .f32⟩) main_call5_v5) Host.divf,
    TRef.binary (TRef.of (T := ⟨S50000x128, .f32⟩) main_v53) (TRef.of (T := ⟨S50000x128, .f32⟩) main_call5_v5) (TRef.of (T := ⟨S50000x128, .f32⟩) main_v54) mulf,
    nullary main_cst_8 (constant S_ .f32 0x3FD55555#32),
    unary main_cst_8 main_v55 (broadcastInDim S50000x128 ![] bcast_S_S50000x128 : (⟨S_, .f32⟩ : BufTy).Contents (Elt F) → (⟨S50000x128, .f32⟩ : BufTy).Contents (Elt F)),
    binary main_v54 main_v55 main_v56 (mulf : (⟨S50000x128, .f32⟩ : BufTy).Contents (Elt F) → (⟨S50000x128, .f32⟩ : BufTy).Contents (Elt F) → (⟨S50000x128, .f32⟩ : BufTy).Contents (Elt F)),
    binary main_v56 main_v52 main_v57 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    TRef.unary (TRef.of (T := ⟨S50000x128, .f32⟩) main_v57) (TRef.of (T := ⟨S50000x128, .f32⟩) main_call6_v0) Host.negf,
    TRef.unary (TRef.of (T := ⟨S50000x128, .f32⟩) main_call6_v0) (TRef.of (T := ⟨S50000x128, .f32⟩) main_call6_v1) Host.exp,
    TRef.nullary (TRef.of (T := ⟨S_, .f32⟩) main_call6_cst) (constant S_ .f32 0x3F800000#32),
    TRef.unary (TRef.of (T := ⟨S_, .f32⟩) main_call6_cst) (TRef.of (T := ⟨S50000x128, .f32⟩) main_call6_v2) (broadcastInDim S50000x128 ![] bcast_S_S50000x128),
    TRef.binary (TRef.of (T := ⟨S50000x128, .f32⟩) main_call6_v2) (TRef.of (T := ⟨S50000x128, .f32⟩) main_call6_v1) (TRef.of (T := ⟨S50000x128, .f32⟩) main_call6_v3) addf,
    TRef.nullary (TRef.of (T := ⟨S_, .f32⟩) main_call6_cst_0) (constant S_ .f32 0x3F800000#32),
    TRef.unary (TRef.of (T := ⟨S_, .f32⟩) main_call6_cst_0) (TRef.of (T := ⟨S50000x128, .f32⟩) main_call6_v4) (broadcastInDim S50000x128 ![] bcast_S_S50000x128),
    TRef.binary (TRef.of (T := ⟨S50000x128, .f32⟩) main_call6_v4) (TRef.of (T := ⟨S50000x128, .f32⟩) main_call6_v3) (TRef.of (T := ⟨S50000x128, .f32⟩) main_call6_v5) Host.divf,
    TRef.binary (TRef.of (T := ⟨S50000x128, .f32⟩) main_v57) (TRef.of (T := ⟨S50000x128, .f32⟩) main_call6_v5) (TRef.of (T := ⟨S50000x128, .f32⟩) main_v58) mulf,
    nullary main_cst_9 (constant S_ .f32 0x3FD55555#32),
    unary main_cst_9 main_v59 (broadcastInDim S50000x128 ![] bcast_S_S50000x128 : (⟨S_, .f32⟩ : BufTy).Contents (Elt F) → (⟨S50000x128, .f32⟩ : BufTy).Contents (Elt F)),
    binary main_v58 main_v59 main_v60 (mulf : (⟨S50000x128, .f32⟩ : BufTy).Contents (Elt F) → (⟨S50000x128, .f32⟩ : BufTy).Contents (Elt F) → (⟨S50000x128, .f32⟩ : BufTy).Contents (Elt F)),
    binary main_v48 main_v60 main_v61 (addf : (⟨S50000x128, .f32⟩ : BufTy).Contents (Elt F) → (⟨S50000x128, .f32⟩ : BufTy).Contents (Elt F) → (⟨S50000x128, .f32⟩ : BufTy).Contents (Elt F)),
    nullary main_cst_10 (constant S_ .f32 0x3F3504F3#32),
    unary main_cst_10 main_v62 (broadcastInDim S50000x128 ![] bcast_S_S50000x128 : (⟨S_, .f32⟩ : BufTy).Contents (Elt F) → (⟨S50000x128, .f32⟩ : BufTy).Contents (Elt F)),
    binary main_v61 main_v62 main_v63 (mulf : (⟨S50000x128, .f32⟩ : BufTy).Contents (Elt F) → (⟨S50000x128, .f32⟩ : BufTy).Contents (Elt F) → (⟨S50000x128, .f32⟩ : BufTy).Contents (Elt F)) ]

/-- The third residual step, with matrices (2, 0) and (2, 1) of the second weight stack. -/
abbrev s5 : List (HloOp τ sig (Elt F)) :=
  [ unary main_arg7 main_v64 ((extractStridedSlice S1x1x128x128 ![2, 0, 0, 0] · slices_S3x2x128x128_S1x1x128x128_2_0_0_0) : (⟨S3x2x128x128, .f32⟩ : BufTy).Contents (Elt F) → (⟨S1x1x128x128, .f32⟩ : BufTy).Contents (Elt F)),
    reshape main_v64 main_v65 rfl shapeCasts_S1x1x128x128_S128x128,
    unary main_arg7 main_v66 ((extractStridedSlice S1x1x128x128 ![2, 1, 0, 0] · slices_S3x2x128x128_S1x1x128x128_2_1_0_0) : (⟨S3x2x128x128, .f32⟩ : BufTy).Contents (Elt F) → (⟨S1x1x128x128, .f32⟩ : BufTy).Contents (Elt F)),
    reshape main_v66 main_v67 rfl shapeCasts_S1x1x128x128_S128x128,
    binary main_v63 main_v65 main_v68 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    TRef.unary (TRef.of (T := ⟨S50000x128, .f32⟩) main_v68) (TRef.of (T := ⟨S50000x128, .f32⟩) main_call7_v0) Host.negf,
    TRef.unary (TRef.of (T := ⟨S50000x128, .f32⟩) main_call7_v0) (TRef.of (T := ⟨S50000x128, .f32⟩) main_call7_v1) Host.exp,
    TRef.nullary (TRef.of (T := ⟨S_, .f32⟩) main_call7_cst) (constant S_ .f32 0x3F800000#32),
    TRef.unary (TRef.of (T := ⟨S_, .f32⟩) main_call7_cst) (TRef.of (T := ⟨S50000x128, .f32⟩) main_call7_v2) (broadcastInDim S50000x128 ![] bcast_S_S50000x128),
    TRef.binary (TRef.of (T := ⟨S50000x128, .f32⟩) main_call7_v2) (TRef.of (T := ⟨S50000x128, .f32⟩) main_call7_v1) (TRef.of (T := ⟨S50000x128, .f32⟩) main_call7_v3) addf,
    TRef.nullary (TRef.of (T := ⟨S_, .f32⟩) main_call7_cst_0) (constant S_ .f32 0x3F800000#32),
    TRef.unary (TRef.of (T := ⟨S_, .f32⟩) main_call7_cst_0) (TRef.of (T := ⟨S50000x128, .f32⟩) main_call7_v4) (broadcastInDim S50000x128 ![] bcast_S_S50000x128),
    TRef.binary (TRef.of (T := ⟨S50000x128, .f32⟩) main_call7_v4) (TRef.of (T := ⟨S50000x128, .f32⟩) main_call7_v3) (TRef.of (T := ⟨S50000x128, .f32⟩) main_call7_v5) Host.divf,
    TRef.binary (TRef.of (T := ⟨S50000x128, .f32⟩) main_v68) (TRef.of (T := ⟨S50000x128, .f32⟩) main_call7_v5) (TRef.of (T := ⟨S50000x128, .f32⟩) main_v69) mulf,
    nullary main_cst_11 (constant S_ .f32 0x3FD55555#32),
    unary main_cst_11 main_v70 (broadcastInDim S50000x128 ![] bcast_S_S50000x128 : (⟨S_, .f32⟩ : BufTy).Contents (Elt F) → (⟨S50000x128, .f32⟩ : BufTy).Contents (Elt F)),
    binary main_v69 main_v70 main_v71 (mulf : (⟨S50000x128, .f32⟩ : BufTy).Contents (Elt F) → (⟨S50000x128, .f32⟩ : BufTy).Contents (Elt F) → (⟨S50000x128, .f32⟩ : BufTy).Contents (Elt F)),
    binary main_v71 main_v67 main_v72 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    TRef.unary (TRef.of (T := ⟨S50000x128, .f32⟩) main_v72) (TRef.of (T := ⟨S50000x128, .f32⟩) main_call8_v0) Host.negf,
    TRef.unary (TRef.of (T := ⟨S50000x128, .f32⟩) main_call8_v0) (TRef.of (T := ⟨S50000x128, .f32⟩) main_call8_v1) Host.exp,
    TRef.nullary (TRef.of (T := ⟨S_, .f32⟩) main_call8_cst) (constant S_ .f32 0x3F800000#32),
    TRef.unary (TRef.of (T := ⟨S_, .f32⟩) main_call8_cst) (TRef.of (T := ⟨S50000x128, .f32⟩) main_call8_v2) (broadcastInDim S50000x128 ![] bcast_S_S50000x128),
    TRef.binary (TRef.of (T := ⟨S50000x128, .f32⟩) main_call8_v2) (TRef.of (T := ⟨S50000x128, .f32⟩) main_call8_v1) (TRef.of (T := ⟨S50000x128, .f32⟩) main_call8_v3) addf,
    TRef.nullary (TRef.of (T := ⟨S_, .f32⟩) main_call8_cst_0) (constant S_ .f32 0x3F800000#32),
    TRef.unary (TRef.of (T := ⟨S_, .f32⟩) main_call8_cst_0) (TRef.of (T := ⟨S50000x128, .f32⟩) main_call8_v4) (broadcastInDim S50000x128 ![] bcast_S_S50000x128),
    TRef.binary (TRef.of (T := ⟨S50000x128, .f32⟩) main_call8_v4) (TRef.of (T := ⟨S50000x128, .f32⟩) main_call8_v3) (TRef.of (T := ⟨S50000x128, .f32⟩) main_call8_v5) Host.divf,
    TRef.binary (TRef.of (T := ⟨S50000x128, .f32⟩) main_v72) (TRef.of (T := ⟨S50000x128, .f32⟩) main_call8_v5) (TRef.of (T := ⟨S50000x128, .f32⟩) main_v73) mulf,
    nullary main_cst_12 (constant S_ .f32 0x3FD55555#32),
    unary main_cst_12 main_v74 (broadcastInDim S50000x128 ![] bcast_S_S50000x128 : (⟨S_, .f32⟩ : BufTy).Contents (Elt F) → (⟨S50000x128, .f32⟩ : BufTy).Contents (Elt F)),
    binary main_v73 main_v74 main_v75 (mulf : (⟨S50000x128, .f32⟩ : BufTy).Contents (Elt F) → (⟨S50000x128, .f32⟩ : BufTy).Contents (Elt F) → (⟨S50000x128, .f32⟩ : BufTy).Contents (Elt F)),
    binary main_v63 main_v75 main_v76 (addf : (⟨S50000x128, .f32⟩ : BufTy).Contents (Elt F) → (⟨S50000x128, .f32⟩ : BufTy).Contents (Elt F) → (⟨S50000x128, .f32⟩ : BufTy).Contents (Elt F)),
    nullary main_cst_13 (constant S_ .f32 0x3F3504F3#32),
    unary main_cst_13 main_v77 (broadcastInDim S50000x128 ![] bcast_S_S50000x128 : (⟨S_, .f32⟩ : BufTy).Contents (Elt F) → (⟨S50000x128, .f32⟩ : BufTy).Contents (Elt F)),
    binary main_v76 main_v77 main_v78 (mulf : (⟨S50000x128, .f32⟩ : BufTy).Contents (Elt F) → (⟨S50000x128, .f32⟩ : BufTy).Contents (Elt F) → (⟨S50000x128, .f32⟩ : BufTy).Contents (Elt F)) ]

set_option maxRecDepth 8192 in
/-- The operation list is the six stages in order. -/
theorem ops_eq : (RunP.ops : List (HloOp τ sig (Elt F))) = s0 ++ (s1 ++ (s2 ++ (s3 ++ (s4 ++ s5)))) := rfl

end Stages

/-! ## The host's chains as functions of their operands -/

/-- The host's layer: a product with a weight matrix, then y · (1 / (1 + e^(−y))) · c entry by entry. -/
def hostLayer (X : FVec Ideal S50000x128 .f32) (w : FVec Ideal S128x128 .f32) : FVec Ideal S50000x128 .f32 :=
  mulf (mulf (Host.dotGeneral dot_S50000x128_S128x128_S50000x128_1_0_0_1_n_n none X w)
      (Host.divf (broadcastInDim S50000x128 ![] bcast_S_S50000x128 (constant (F := Ideal) S_ .f32 0x3F800000#32))
        (addf (broadcastInDim S50000x128 ![] bcast_S_S50000x128 (constant (F := Ideal) S_ .f32 0x3F800000#32))
          (Host.exp (Host.negf (Host.dotGeneral dot_S50000x128_S128x128_S50000x128_1_0_0_1_n_n none X w))))))
    (broadcastInDim S50000x128 ![] bcast_S_S50000x128 (constant (F := Ideal) S_ .f32 0x3FD55555#32))

/-- The host's residual step: two layers, added back onto the array, scaled. -/
def hostResid (X : FVec Ideal S50000x128 .f32) (w₀ w₁ : FVec Ideal S128x128 .f32) : FVec Ideal S50000x128 .f32 :=
  mulf (addf X (hostLayer (hostLayer X w₀) w₁))
    (broadcastInDim S50000x128 ![] bcast_S_S50000x128 (constant (F := Ideal) S_ .f32 0x3F3504F3#32))

/-- The host's layer is a layer of every row. -/
theorem hostLayer_eq (X : FVec Ideal S50000x128 .f32) (w : FVec Ideal S128x128 .f32) :
    hostLayer X w = layerArr (R := 50000) X (mat w) :=
  (host_act (R := 50000) (Host.dotGeneral dot_S50000x128_S128x128_S50000x128_1_0_0_1_n_n none X w) bcast_S_S50000x128).trans (by
    rw [dotGeneral_rows (R := 50000) dot_S50000x128_S128x128_S50000x128_1_0_0_1_n_n rfl X w]
    rfl)

/-- The host's residual step is the residual step of every row. -/
theorem hostResid_eq (X : FVec Ideal S50000x128 .f32) (w₀ w₁ : FVec Ideal S128x128 .f32) :
    hostResid X w₀ w₁ = residArr (R := 50000) X (mat w₀) (mat w₁) :=
  (host_resid (R := 50000) X (hostLayer (hostLayer X w₀) w₁) bcast_S_S50000x128).trans (by
    rw [hostLayer_eq, hostLayer_eq, residArr_eq])

/-- A matrix cut out of the second weight stack by a unit slice at (l, s) and a reshape is matrix (l, s) of the stack. -/
theorem slice_mat4 (a7 : FVec Ideal S3x2x128x128 .f32) (off : Fin 4 → Nat) (l : Fin 3) (s : Fin 2)
    (hs : S3x2x128x128.Slices off S1x1x128x128) (hc : S1x1x128x128.ShapeCasts S128x128)
    (h0 : off 0 = l.val) (h1 : off 1 = s.val) (h2 : off 2 = 0) (h3 : off 3 = 0) :
    mat (shapeCast S128x128 (extractStridedSlice S1x1x128x128 off a7 hs) hc) = mat4 a7 l s := by
  funext k j
  show shapeCast S128x128 (extractStridedSlice S1x1x128x128 off a7 hs) hc (ix2 k j) = a7 (ix4 l s k j)
  refine (shapeCast_apply _ hc (ix2 k j) (ix4 (0 : Fin 1) (0 : Fin 1) k j) ?_).trans ?_
  · rw [Shape.rowMajor_val_four, Shape.rowMajor_val_two]
    show (((0 : Fin 1).val * 1 + (0 : Fin 1).val) * 128 + k.val) * 128 + j.val = k.val * 128 + j.val
    simp
  · refine extractStridedSlice_apply off a7 hs _ (ix4 l s k j) fun a => ?_
    match a with
    | ⟨0, _⟩ => show l.val = off 0 + 0; rw [h0, Nat.add_zero]
    | ⟨1, _⟩ => show s.val = off 1 + 0; rw [h1, Nat.add_zero]
    | ⟨2, _⟩ => show k.val = off 2 + k.val; rw [h2, Nat.zero_add]
    | ⟨3, _⟩ => show j.val = off 3 + j.val; rw [h3, Nat.zero_add]

/-! ## The node stage and the aggregation as named functions -/

/-- The node stage: the residual step of the node features with the two matrices cut out of the first weight stack
    (each left as the host spells it: a unit slice, then a reshape). -/
def nodeArr (a0 : S50000x128.Idx → EReal) (a5 : S2x128x128.Idx → EReal) : S50000x128.Idx → EReal :=
  residArr (R := 50000) a0
    (mat (shapeCast S128x128 (extractStridedSlice S1x128x128 ![0, 0, 0] a5 slices_S2x128x128_S1x128x128_0_0_0) shapeCasts_S1x128x128_S128x128))
    (mat (shapeCast S128x128 (extractStridedSlice S1x128x128 ![1, 0, 0] a5 slices_S2x128x128_S1x128x128_1_0_0) shapeCasts_S1x128x128_S128x128))

/-- The host steps from the node-stage array `H` to the aggregated, scaled array, exactly as the reference's operations
    compose: each edge's source index normalised (a negative index moved up by the number of nodes), the node rows
    gathered by it, multiplied entry by entry (the gathered row FIRST, the edge product SECOND) with the edges'
    features times a weight matrix, added up per target node into zeros, scaled by the one-element scale array. -/
def aggArr (H : S50000x128.Idx → EReal) (a1 : S800000x128.Idx → EReal) (a2 a3 : S800000.Idx → BitVec 32)
    (a4 : S128x128.Idx → EReal) (a8 : S1.Idx → EReal) : S50000x128.Idx → EReal :=
  mulf (F := Ideal) (φ := .f32)
    (Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 a3)
      (mulf (F := Ideal) (φ := .f32)
        (Host.gather gather_S50000x128_S800000x1_S800000x128_1_0_n_n_0_1_1128 H
          (broadcastInDim S800000x1 ![0] bcast_S800000_S800000x1_0
            (select (cmpi .slt a2 (broadcastInDim S800000 ![] bcast_S_S800000 (constantI S_ 32 0#32)))
              (addi a2 (broadcastInDim S800000 ![] bcast_S_S800000 (constantI S_ 32 50000#32))) a2)))
        (Host.dotGeneral (F := Ideal) (φ₁ := .f32) (φ₂ := .f32) dot_S800000x128_S128x128_S800000x128_1_0_0_1_n_n none a1 a4)))
    (broadcastInDim S50000x128 ![] bcast_S_S50000x128 (shapeCast S_ a8 shapeCasts_S1_S_))

/-! ## What each stage leaves at its last buffer, over an arbitrary valuation -/

theorem stage0_host (V : Valuation τ sig (Elt Ideal)) :
    after (s0 (F := Ideal)) V (Proc.devRef .tc main_v14)
      = hostResid (V (Proc.devRef .tc main_arg0))
          (shapeCast S128x128 (extractStridedSlice S1x128x128 ![0, 0, 0] (V (Proc.devRef .tc main_arg5)) slices_S2x128x128_S1x128x128_0_0_0) shapeCasts_S1x128x128_S128x128)
          (shapeCast S128x128 (extractStridedSlice S1x128x128 ![1, 0, 0] (V (Proc.devRef .tc main_arg5)) slices_S2x128x128_S1x128x128_1_0_0) shapeCasts_S1x128x128_S128x128) := by
  after_results_simp <;> rfl

/-- The node stage, in the specification's words. -/
theorem stage0_val (V : Valuation τ sig (Elt Ideal)) :
    after (s0 (F := Ideal)) V (Proc.devRef .tc main_v14) = nodeArr (V (Proc.devRef .tc main_arg0)) (V (Proc.devRef .tc main_arg5)) :=
  (stage0_host V).trans (hostResid_eq _ _ _)

/-- The aggregation stage leaves the host steps' composed term. -/
theorem stage1_val (V : Valuation τ sig (Elt Ideal)) :
    after (s1 (F := Ideal)) V (Proc.devRef .tc main_v29)
      = aggArr (V (Proc.devRef .tc main_v14)) (V (Proc.devRef .tc main_arg1)) (V (Proc.devRef .tc main_arg2)) (V (Proc.devRef .tc main_arg3))
          (V (Proc.devRef .tc main_arg4)) (V (Proc.devRef .tc main_arg8)) := by
  unfold aggArr
  after_results_simp <;> rfl

theorem stage2_host (V : Valuation τ sig (Elt Ideal)) :
    after (s2 (F := Ideal)) V (Proc.devRef .tc main_v33) = hostLayer (V (Proc.devRef .tc main_v29)) (V (Proc.devRef .tc main_arg6)) := by
  after_results_simp <;> rfl

/-- The layer after the aggregation, in the specification's words. -/
theorem stage2_val (V : Valuation τ sig (Elt Ideal)) :
    after (s2 (F := Ideal)) V (Proc.devRef .tc main_v33) = layerArr (R := 50000) (V (Proc.devRef .tc main_v29)) (mat (V (Proc.devRef .tc main_arg6))) :=
  (stage2_host V).trans (hostLayer_eq _ _)

theorem stage3_host (V : Valuation τ sig (Elt Ideal)) :
    after (s3 (F := Ideal)) V (Proc.devRef .tc main_v48)
      = hostResid (V (Proc.devRef .tc main_v33))
          (shapeCast S128x128 (extractStridedSlice S1x1x128x128 ![0, 0, 0, 0] (V (Proc.devRef .tc main_arg7)) slices_S3x2x128x128_S1x1x128x128_0_0_0_0) shapeCasts_S1x1x128x128_S128x128)
          (shapeCast S128x128 (extractStridedSlice S1x1x128x128 ![0, 1, 0, 0] (V (Proc.devRef .tc main_arg7)) slices_S3x2x128x128_S1x1x128x128_0_1_0_0) shapeCasts_S1x1x128x128_S128x128) := by
  after_results_simp <;> rfl

/-- The first residual step of the second weight stack, in the specification's words. -/
theorem stage3_val (V : Valuation τ sig (Elt Ideal)) :
    after (s3 (F := Ideal)) V (Proc.devRef .tc main_v48)
      = residArr (R := 50000) (V (Proc.devRef .tc main_v33)) (mat4 (V (Proc.devRef .tc main_arg7)) 0 0) (mat4 (V (Proc.devRef .tc main_arg7)) 0 1) :=
  (stage3_host V).trans ((hostResid_eq _ _ _).trans (by
    rw [slice_mat4 (V (Proc.devRef .tc main_arg7)) ![0, 0, 0, 0] 0 0 _ _ rfl rfl rfl rfl,
      slice_mat4 (V (Proc.devRef .tc main_arg7)) ![0, 1, 0, 0] 0 1 _ _ rfl rfl rfl rfl]))

theorem stage4_host (V : Valuation τ sig (Elt Ideal)) :
    after (s4 (F := Ideal)) V (Proc.devRef .tc main_v63)
      = hostResid (V (Proc.devRef .tc main_v48))
          (shapeCast S128x128 (extractStridedSlice S1x1x128x128 ![1, 0, 0, 0] (V (Proc.devRef .tc main_arg7)) slices_S3x2x128x128_S1x1x128x128_1_0_0_0) shapeCasts_S1x1x128x128_S128x128)
          (shapeCast S128x128 (extractStridedSlice S1x1x128x128 ![1, 1, 0, 0] (V (Proc.devRef .tc main_arg7)) slices_S3x2x128x128_S1x1x128x128_1_1_0_0) shapeCasts_S1x1x128x128_S128x128) := by
  after_results_simp <;> rfl

/-- The second residual step of the second weight stack, in the specification's words. -/
theorem stage4_val (V : Valuation τ sig (Elt Ideal)) :
    after (s4 (F := Ideal)) V (Proc.devRef .tc main_v63)
      = residArr (R := 50000) (V (Proc.devRef .tc main_v48)) (mat4 (V (Proc.devRef .tc main_arg7)) 1 0) (mat4 (V (Proc.devRef .tc main_arg7)) 1 1) :=
  (stage4_host V).trans ((hostResid_eq _ _ _).trans (by
    rw [slice_mat4 (V (Proc.devRef .tc main_arg7)) ![1, 0, 0, 0] 1 0 _ _ rfl rfl rfl rfl,
      slice_mat4 (V (Proc.devRef .tc main_arg7)) ![1, 1, 0, 0] 1 1 _ _ rfl rfl rfl rfl]))

theorem stage5_host (V : Valuation τ sig (Elt Ideal)) :
    after (s5 (F := Ideal)) V (Proc.devRef .tc main_v78)
      = hostResid (V (Proc.devRef .tc main_v63))
          (shapeCast S128x128 (extractStridedSlice S1x1x128x128 ![2, 0, 0, 0] (V (Proc.devRef .tc main_arg7)) slices_S3x2x128x128_S1x1x128x128_2_0_0_0) shapeCasts_S1x1x128x128_S128x128)
          (shapeCast S128x128 (extractStridedSlice S1x1x128x128 ![2, 1, 0, 0] (V (Proc.devRef .tc main_arg7)) slices_S3x2x128x128_S1x1x128x128_2_1_0_0) shapeCasts_S1x1x128x128_S128x128) := by
  after_results_simp <;> rfl

/-- The third residual step of the second weight stack, in the specification's words. -/
theorem stage5_val (V : Valuation τ sig (Elt Ideal)) :
    after (s5 (F := Ideal)) V (Proc.devRef .tc main_v78)
      = residArr (R := 50000) (V (Proc.devRef .tc main_v63)) (mat4 (V (Proc.devRef .tc main_arg7)) 2 0) (mat4 (V (Proc.devRef .tc main_arg7)) 2 1) :=
  (stage5_host V).trans ((hostResid_eq _ _ _).trans (by
    rw [slice_mat4 (V (Proc.devRef .tc main_arg7)) ![2, 0, 0, 0] 2 0 _ _ rfl rfl rfl rfl,
      slice_mat4 (V (Proc.devRef .tc main_arg7)) ![2, 1, 0, 0] 2 1 _ _ rfl rfl rfl rfl]))

/-! ## No operation writes an argument -/

section NoWrite
set_option maxRecDepth 16384

/-- Closes "no operation of the list writes this buffer": each operation writes its one result buffer, which is another. -/
local macro "no_write" : tactic =>
  `(tactic| (refine List.forall_iff_forall_mem.mp ?_
             simp only [RunP.ops, List.Forall, nullary_writes, unary_writes, binary_writes, ternary_writes, reshape_writes,
               Finset.mem_singleton]
             repeat' apply And.intro
             all_goals exact devRef_ne_of_ne (by decide)))

theorem nw_arg0 : ∀ op ∈ (RunP.ops (F := Ideal)), Proc.devRef (τ := τ) .tc main_arg0 ∉ op.writes := by no_write
theorem nw_arg1 : ∀ op ∈ (RunP.ops (F := Ideal)), Proc.devRef (τ := τ) .tc main_arg1 ∉ op.writes := by no_write
theorem nw_arg2 : ∀ op ∈ (RunP.ops (F := Ideal)), Proc.devRef (τ := τ) .tc main_arg2 ∉ op.writes := by no_write
theorem nw_arg3 : ∀ op ∈ (RunP.ops (F := Ideal)), Proc.devRef (τ := τ) .tc main_arg3 ∉ op.writes := by no_write
theorem nw_arg4 : ∀ op ∈ (RunP.ops (F := Ideal)), Proc.devRef (τ := τ) .tc main_arg4 ∉ op.writes := by no_write
theorem nw_arg5 : ∀ op ∈ (RunP.ops (F := Ideal)), Proc.devRef (τ := τ) .tc main_arg5 ∉ op.writes := by no_write
theorem nw_arg6 : ∀ op ∈ (RunP.ops (F := Ideal)), Proc.devRef (τ := τ) .tc main_arg6 ∉ op.writes := by no_write
theorem nw_arg7 : ∀ op ∈ (RunP.ops (F := Ideal)), Proc.devRef (τ := τ) .tc main_arg7 ∉ op.writes := by no_write
theorem nw_arg8 : ∀ op ∈ (RunP.ops (F := Ideal)), Proc.devRef (τ := τ) .tc main_arg8 ∉ op.writes := by no_write

end NoWrite

/-- Two valuations hold the same contents at the nine argument buffers. -/
structure ArgsEq (W V : Valuation τ sig (Elt Ideal)) : Prop where
  a0 : W (Proc.devRef .tc main_arg0) = V (Proc.devRef .tc main_arg0)
  a1 : W (Proc.devRef .tc main_arg1) = V (Proc.devRef .tc main_arg1)
  a2 : W (Proc.devRef .tc main_arg2) = V (Proc.devRef .tc main_arg2)
  a3 : W (Proc.devRef .tc main_arg3) = V (Proc.devRef .tc main_arg3)
  a4 : W (Proc.devRef .tc main_arg4) = V (Proc.devRef .tc main_arg4)
  a5 : W (Proc.devRef .tc main_arg5) = V (Proc.devRef .tc main_arg5)
  a6 : W (Proc.devRef .tc main_arg6) = V (Proc.devRef .tc main_arg6)
  a7 : W (Proc.devRef .tc main_arg7) = V (Proc.devRef .tc main_arg7)
  a8 : W (Proc.devRef .tc main_arg8) = V (Proc.devRef .tc main_arg8)

theorem ArgsEq.refl (V : Valuation τ sig (Elt Ideal)) : ArgsEq V V := ⟨rfl, rfl, rfl, rfl, rfl, rfl, rfl, rfl, rfl⟩

/-- Running any part of the operation list keeps the arguments. -/
theorem ArgsEq.after {s : List (HloOp τ sig (Elt Ideal))} (hs : ∀ op ∈ s, op ∈ RunP.ops (F := Ideal))
    {W V : Valuation τ sig (Elt Ideal)} (h : ArgsEq W V) : ArgsEq (after s W) V :=
  ⟨(after_of_forall_not_mem s W fun op ho => nw_arg0 op (hs op ho)).trans h.a0,
   (after_of_forall_not_mem s W fun op ho => nw_arg1 op (hs op ho)).trans h.a1,
   (after_of_forall_not_mem s W fun op ho => nw_arg2 op (hs op ho)).trans h.a2,
   (after_of_forall_not_mem s W fun op ho => nw_arg3 op (hs op ho)).trans h.a3,
   (after_of_forall_not_mem s W fun op ho => nw_arg4 op (hs op ho)).trans h.a4,
   (after_of_forall_not_mem s W fun op ho => nw_arg5 op (hs op ho)).trans h.a5,
   (after_of_forall_not_mem s W fun op ho => nw_arg6 op (hs op ho)).trans h.a6,
   (after_of_forall_not_mem s W fun op ho => nw_arg7 op (hs op ho)).trans h.a7,
   (after_of_forall_not_mem s W fun op ho => nw_arg8 op (hs op ho)).trans h.a8⟩

theorem sub0 : ∀ op ∈ (s0 (F := Ideal)), op ∈ RunP.ops (F := Ideal) := fun op h => by
  rw [ops_eq]; exact List.mem_append_left _ h
theorem sub1 : ∀ op ∈ (s1 (F := Ideal)), op ∈ RunP.ops (F := Ideal) := fun op h => by
  rw [ops_eq]; exact List.mem_append_right _ (List.mem_append_left _ h)
theorem sub2 : ∀ op ∈ (s2 (F := Ideal)), op ∈ RunP.ops (F := Ideal) := fun op h => by
  rw [ops_eq]; exact List.mem_append_right _ (List.mem_append_right _ (List.mem_append_left _ h))
theorem sub3 : ∀ op ∈ (s3 (F := Ideal)), op ∈ RunP.ops (F := Ideal) := fun op h => by
  rw [ops_eq]; exact List.mem_append_right _ (List.mem_append_right _ (List.mem_append_right _ (List.mem_append_left _ h)))
theorem sub4 : ∀ op ∈ (s4 (F := Ideal)), op ∈ RunP.ops (F := Ideal) := fun op h => by
  rw [ops_eq]; exact List.mem_append_right _ (List.mem_append_right _ (List.mem_append_right _ (List.mem_append_right _ (List.mem_append_left _ h))))

/-! ## The whole list, and the run -/

/-- The reference's result buffer after all 167 operations, as the specification's functions of the arguments. -/
theorem result_eq (V : Valuation τ sig (Elt Ideal)) :
    after (RunP.ops (F := Ideal)) V (Proc.devRef .tc main_v78)
      = postArr (R := 50000)
          (aggArr (nodeArr (V (Proc.devRef .tc main_arg0)) (V (Proc.devRef .tc main_arg5))) (V (Proc.devRef .tc main_arg1)) (V (Proc.devRef .tc main_arg2))
            (V (Proc.devRef .tc main_arg3)) (V (Proc.devRef .tc main_arg4)) (V (Proc.devRef .tc main_arg8)))
          (mat (V (Proc.devRef .tc main_arg6))) (mat4 (V (Proc.devRef .tc main_arg7))) := by
  have A0 := (ArgsEq.refl V).after sub0
  have A1 := A0.after sub1
  have A2 := A1.after sub2
  have A3 := A2.after sub3
  have A4 := A3.after sub4
  rw [ops_eq, StableHlo.after_append, StableHlo.after_append, StableHlo.after_append, StableHlo.after_append, StableHlo.after_append]
  rw [stage5_val, stage4_val, stage3_val, stage2_val, stage1_val, stage0_val]
  rw [A4.a7, A3.a7, A2.a7, A1.a6, A0.a1, A0.a2, A0.a3, A0.a4, A0.a8]
  rfl

/-- On every device, from any memory with zero counters: every weakly fair execution of the reference terminates with
    its result the specification's functions of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v78)
          = postArr (R := 50000)
              (aggArr (nodeArr (m ((c.tc : Thread nD τ).loc main_arg0)) (m ((c.tc : Thread nD τ).loc main_arg5))) (m ((c.tc : Thread nD τ).loc main_arg1)) (m ((c.tc : Thread nD τ).loc main_arg2))
                (m ((c.tc : Thread nD τ).loc main_arg3)) (m ((c.tc : Thread nD τ).loc main_arg4)) (m ((c.tc : Thread nD τ).loc main_arg8)))
              (mat (m ((c.tc : Thread nD τ).loc main_arg6))) (mat4 (m ((c.tc : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run (defs (F := Ideal)) _ _).mono (fun _ h c =>
      have A : ArgsEq (after (RunP.ops (F := Ideal)) (launchContents m c)) (launchContents m c) :=
        (ArgsEq.refl _).after fun _ ho => ho
      ⟨(h c main_v78).trans (result_eq (launchContents m c)),
       (h c main_arg0).trans A.a0,
       (h c main_arg1).trans A.a1,
       (h c main_arg2).trans A.a2,
       (h c main_arg3).trans A.a3,
       (h c main_arg4).trans A.a4,
       (h c main_arg5).trans A.a5,
       (h c main_arg6).trans A.a6,
       (h c main_arg7).trans A.a7,
       (h c main_arg8).trans A.a8⟩)
    (RunP.run_after m ρ)

end Cert.ReferenceIdeal.RefValue

end
-- ==== Proof.Bridge.lean ====
/-
  The two idealized programs compute one function of the arguments.

  Both apply the residual step to every node row, gather node rows at the wrapped source indices, multiply by each
  edge row's dense map, scatter-add at the target indices into zeros, scale, and apply one layer and three residual
  blocks row by row. They differ in one place: the kernel multiplies the edge's dense map by the gathered row, the
  reference the gathered row by the dense map. Multiplication on the extended reals is commutative, so the edge
  arrays agree entry by entry — no finiteness of the inputs is used.
-/
import proofs.«134382_j13142599926314_1_alg».proof.Defs
import proofs.«134382_j13142599926314_1_alg».proof.Proof.KFold
import proofs.«134382_j13142599926314_1_alg».proof.Proof.RefStages
import proofs.«134382_j13142599926314_1_alg».proof.Proof.RowOps
import proofs.«134382_j13142599926314_1_alg».proof.Proof.Gen.Pre_finite_inputs

noncomputable section

namespace Cert.Bridge

open Cert.Spec Cert.RowOps Idealize.ShloMosaic Idealize.ShloMosaic.TcCoe Idealize.SL.Sem

/-- The edge stage with its two factors in the reference's order: the gathered row times the host's product. -/
theorem edge_comm (B : (Rows 800000).Idx → EReal) (w : SW.Idx → EReal) (G : (Rows 800000).Idx → EReal) :
    edgeArr (R := 800000) B (mat w) G
      = mulf (F := Ideal) (φ := .f32) G
          (Host.dotGeneral (φ₁ := .f32) (φ₂ := .f32) Cert.ReferenceIdeal.dot_S800000x128_S128x128_S800000x128_1_0_0_1_n_n none B w) := by
  rw [dotGeneral_rows Cert.ReferenceIdeal.dot_S800000x128_S128x128_S800000x128_1_0_0_1_n_n rfl]
  funext i
  exact mul_comm _ _

/-- The node stage is spelt the same in both programs. -/
theorem node_eq (a0 : (Rows 50000).Idx → EReal) (a5 : Cert.KernelIdeal.S2x128x128.Idx → EReal) :
    Cert.KernelIdeal.KEval.nodeK a0 a5 = Cert.ReferenceIdeal.RefValue.nodeArr a0 a5 := rfl

/-- From the node-stage array to the aggregated array: the same host steps, the edge product commuted. -/
theorem agg_eq (H : (Rows 50000).Idx → EReal) (a1 : (Rows 800000).Idx → EReal)
    (a2 a3 : Cert.KernelIdeal.S800000.Idx → BitVec 32) (a4 : SW.Idx → EReal) (a8 : Cert.KernelIdeal.S1.Idx → EReal) :
    Cert.KernelIdeal.KEval.aggK H a1 a2 a3 a4 a8 = Cert.ReferenceIdeal.RefValue.aggArr H a1 a2 a3 a4 a8 := by
  unfold Cert.KernelIdeal.KEval.aggK Cert.ReferenceIdeal.RefValue.aggArr
  rw [edge_comm]
  rfl

/-- The kernel program's result function is the reference's. -/
theorem out_eq (a0 : (Rows 50000).Idx → EReal) (a1 : (Rows 800000).Idx → EReal)
    (a2 a3 : Cert.KernelIdeal.S800000.Idx → BitVec 32) (a4 : SW.Idx → EReal) (a5 : Cert.KernelIdeal.S2x128x128.Idx → EReal)
    (a6 : SW.Idx → EReal) (a7 : SW4.Idx → EReal) (a8 : Cert.KernelIdeal.S1.Idx → EReal) :
    Cert.KernelIdeal.KEval.kernOut a0 a1 a2 a3 a4 a5 a6 a7 a8
      = postArr (R := 50000) (Cert.ReferenceIdeal.RefValue.aggArr (Cert.ReferenceIdeal.RefValue.nodeArr a0 a5) a1 a2 a3 a4 a8)
          (mat a6) (mat4 a7) := by
  unfold Cert.KernelIdeal.KEval.kernOut
  rw [node_eq, agg_eq]

/-- Run from memories that agree on the arguments, both idealized programs end with the same result array, the
    arguments unchanged. -/
theorem algebraic : Cert.algebraic_KernelIdeal_ReferenceIdeal := by
  intro m ρ m' ρ' _ hagree
  refine ⟨_, Cert.KernelIdeal.KFold.run m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5, e6, e7, e8⟩ := hagree c
  rw [e0, e1, e2, e3, e4, e5, e6, e7, e8]
  exact (out_eq _ _ _ _ _ _ _ _ _).symm

end Cert.Bridge

end
-- ==== Proof.lean ====
/-
  The certificate of a message-passing block of a graph network: a kernel program of three tiled kernels with a host
  gather and a host scatter-add between them, against a plain array reference.

  Per node row, both compute  post (scale · Σ_{edges into the node} (resid h)[source] ⊙ (edge features · W_bf)),
  where resid is the residual step of two dense layers with the scaled activation y · σ(y) · c, and post is one such
  layer followed by three residual steps. At the exact (extended-real) reading of the float operations the kernels'
  matrix products into zero accumulators and the host's products are the same sums, the kernels' logistic function is
  the host's 1 / (1 + e^(−y)), changes of float format are the identity, and tiling the rows changes nothing because
  every stage acts row by row. The one rearrangement between the two programs is the order of the two factors of the
  edge product, and multiplication is commutative on the extended reals.

  The three frame claims are the generated frames of the two kernel programs and the reference's run with its result
  dropped; the idealization rewrote no operation, so `preserves` holds trivially.
-/
import proofs.«134382_j13142599926314_1_alg».proof.Defs
import proofs.«134382_j13142599926314_1_alg».proof.Proof.Gen.Kernel
import proofs.«134382_j13142599926314_1_alg».proof.Proof.Gen.Kernel.Skeleton
import proofs.«134382_j13142599926314_1_alg».proof.Proof.Gen.Kernel.Launch
import proofs.«134382_j13142599926314_1_alg».proof.Proof.Gen.Kernel.Points
import proofs.«134382_j13142599926314_1_alg».proof.Proof.Gen.Kernel.Frame
import proofs.«134382_j13142599926314_1_alg».proof.Proof.Gen.KernelIdeal
import proofs.«134382_j13142599926314_1_alg».proof.Proof.Gen.KernelIdeal.Skeleton
import proofs.«134382_j13142599926314_1_alg».proof.Proof.Gen.KernelIdeal.Launch
import proofs.«134382_j13142599926314_1_alg».proof.Proof.Gen.KernelIdeal.Points
import proofs.«134382_j13142599926314_1_alg».proof.Proof.Gen.KernelIdeal.Frame
import proofs.«134382_j13142599926314_1_alg».proof.Proof.Gen.ReferenceIdeal
import proofs.«134382_j13142599926314_1_alg».proof.Proof.Gen.Pre_finite_inputs
import proofs.«134382_j13142599926314_1_alg».proof.Proof.Bridge
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.RefValue.run m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, Cert.Bridge.algebraic⟩

end Cert.Proof

end
